-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S15000x256 : Shape := ⟨2, ![15000, 256]⟩
abbrev S256x256 : Shape := ⟨2, ![256, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S15000x256 : S_.BroadcastsInDim S15000x256 (![] : Fin 0 → Fin S15000x256.rank)
  reducesTo_S15000x256_S_d0_1 : S15000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S20000x256 .f32) (main_arg1 : FVec F S15000x256 .f32) (main_arg2 : FVec F S15000x256 .f32) (main_arg3 : FVec F S256x256 .f32) (main_arg4 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S15000x256 .f32 := Host.absf main_arg1
  let main_cst_0 : FVec F S_ .f32 := constant S_ .f32 0x7F800000#32
  let main_v5 : FVec F S15000x256 .f32 := broadcastInDim S15000x256 ![] bcast_S_S15000x256 main_cst_0
  let main_v6 : IVec S15000x256 1 := cmpf .olt main_v4 main_v5
  let main_c_1 : IVec S_ 1 := constantI S_ 1 1#1
  let main_v7 : IVec S_ 1 := (fun x v => Host.reduce IntOp.andi x v reducesTo_S15000x256_S_d0_1 h_S_) main_v6 main_c_1
  let main_v8 : IVec S_ 1 := andi main_v3 main_v7
  let main_v9 : FVec F S15000x256 .f32 := Host.absf main_arg2
  let main_cst_2 : FVec F S_ .f32 := constant S_ .f32 0x7F800000#32
  let main_v10 : FVec F S15000x256 .f32 := broadcastInDim S15000x256 ![] bcast_S_S15000x256 main_cst_2
  let main_v11 : IVec S15000x256 1 := cmpf .olt main_v9 main_v10
  let main_c_3 : IVec S_ 1 := constantI S_ 1 1#1
  let main_v12 : IVec S_ 1 := (fun x v => Host.reduce IntOp.andi x v reducesTo_S15000x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S20000x256 : Shape := ⟨2, ![20000, 256]⟩
abbrev S15000x256 : Shape := ⟨2, ![15000, 256]⟩
abbrev S256x256 : Shape := ⟨2, ![256, 256]⟩
abbrev S256 : Shape := ⟨1, ![256]⟩
abbrev S1x256 : Shape := ⟨2, ![1, 256]⟩
abbrev S1x1 : Shape := ⟨2, ![1, 1]⟩
abbrev S4000x256 : Shape := ⟨2, ![4000, 256]⟩
abbrev S3000x256 : Shape := ⟨2, ![3000, 256]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 8
  | .vmem => 12
  | .smem => 0
  | _ => 0

abbrev bufTy : (tb : Table) → Fin (tcTables nBuf tb) → BufTy
  | .hbm, ⟨0, _⟩ => ⟨S20000x256, .f32⟩
  | .hbm, ⟨1, _⟩ => ⟨S15000x256, .f32⟩
  | .hbm, ⟨2, _⟩ => ⟨S15000x256, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S1x1, .f32⟩
  | .hbm, ⟨7, _⟩ => ⟨S1, .f32⟩
  | .local _ .vmem, ⟨0, _⟩ => ⟨S4000x256, .f32⟩
  | .local _ .vmem, ⟨1, _⟩ => ⟨S4000x256, .f32⟩
  | .local _ .vmem, ⟨2, _⟩ => ⟨S3000x256, .f32⟩
  | .local _ .vmem, ⟨3, _⟩ => ⟨S3000x256, .f32⟩
  | .local _ .vmem, ⟨4, _⟩ => ⟨S3000x256, .f32⟩
  | .local _ .vmem, ⟨5, _⟩ => ⟨S3000x256, .f32⟩
  | .local _ .vmem, ⟨6, _⟩ => ⟨S256x256, .f32⟩
  | .local _ .vmem, ⟨7, _⟩ => ⟨S1x256, .f32⟩
  | .local _ .vmem, ⟨8, _⟩ => ⟨S1x1, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v81 : BitVec 1 := Scalar.cmpi .eq arg0 c4_i32
  let v82 : BitVec 32 := Scalar.extui v81
  let c0_i32_33 : BitVec 32 := 0#32
  let v83 : BitVec 1 := Scalar.cmpi .ne v82 c0_i32_33
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  inb_S4000x256_S4000x256_0_0 : ∀ a, (![0, 0] : Fin 2 → Nat) a + S4000x256.size a ≤ S4000x256.size a
  h_S4000x256 : 0 < S4000x256.numel
  broadcasts_S1x256_S4000x256 : S1x256.Broadcasts S4000x256
  reduces_S4000x256_S256 : S4000x256.Reduces [0] S256
  inb_S3000x256_S3000x256_0_0 : ∀ a, (![0, 0] : Fin 2 → Nat) a + S3000x256.size a ≤ S3000x256.size a
  h_S3000x256 : 0 < S3000x256.numel
  broadcasts_S1x256_S3000x256 : S1x256.Broadcasts S3000x256
  reduces_S3000x256_S256 : S3000x256.Reduces [0] S256
  shapeCasts_S1x256_S1x1x256 : S1x256.ShapeCasts S1x1x256
  reduces_S1x1x256_S1 : S1x1x256.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1 : S1x1.ShapeCasts S1
  dot_S4000x256_S256x256_S4000x256_1_0_0_1_n_n_wf : DotDims.WF S4000x256 S256x256 S4000x256 [1] [0] [0] [1] [] []
  dot_S3000x256_S256x256_S3000x256_1_0_0_1_n_n_wf : DotDims.WF S3000x256 S256x256 S3000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S20000x256.size a
  hwx0_0 : ∀ i : grid0.Coords, EltTy.bits .f32 = 32 ∨ (Rect.block (s := S20000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x256.size a ≤ S15000x256.size a
  hwx0_1 : ∀ i : grid0.Coords, EltTy.bits .f32 = 32 ∨ (Rect.block (s := S15000x256) S3000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x256.size a ≤ S15000x256.size a
  hwx0_2 : ∀ i : grid0.Coords, EltTy.bits .f32 = 32 ∨ (Rect.block (s := S15000x256) S3000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S20000x256 : Shape := ⟨2, ![20000, 256]⟩
abbrev S15000x256 : Shape := ⟨2, ![15000, 256]⟩
abbrev S256x256 : Shape := ⟨2, ![256, 256]⟩
abbrev S256 : Shape := ⟨1, ![256]⟩
abbrev S50000x256 : Shape := ⟨2, ![50000, 256]⟩
abbrev S1x256 : Shape := ⟨2, ![1, 256]⟩
abbrev S_ : Shape := ⟨0, ![]⟩
abbrev S1 : Shape := ⟨1, ![1]⟩

abbrev nBuf : Space → Nat
  | .hbm => 30
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S15000x256, .f32⟩
  | .hbm, ⟨2, _⟩ => ⟨S15000x256, .f32⟩
  | .hbm, ⟨3, _⟩ => ⟨S256x256, .f32⟩
  | .hbm, ⟨4, _⟩ => ⟨S256, .f32⟩
  | .hbm, ⟨5, _⟩ => ⟨S50000x256, .f32⟩
  | .hbm, ⟨6, _⟩ => ⟨S50000x256, .f32⟩
  | .hbm, ⟨7, _⟩ => ⟨S1x256, .f32⟩
  | .hbm, ⟨8, _⟩ => ⟨S50000x256, .f32⟩
  | .hbm, ⟨9, _⟩ => ⟨S50000x256, .f32⟩
  | .hbm, ⟨10, _⟩ => ⟨S_, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S1x256, .f32⟩
  | .hbm, ⟨16, _⟩ => ⟨S50000x256, .f32⟩
  | .hbm, ⟨17, _⟩ => ⟨S50000x256, .f32⟩
  | .hbm, ⟨18, _⟩ => ⟨S50000x256, .f32⟩
  | .hbm, ⟨19, _⟩ => ⟨S_, .f32⟩
  | .hbm, ⟨20, _⟩ => ⟨S256, .f32⟩
  | .hbm, ⟨21, _⟩ => ⟨S1x256, .f32⟩
  | .hbm, ⟨22, _⟩ => ⟨S50000x256, .f32⟩
  | .hbm, ⟨23, _⟩ => ⟨S50000x256, .f32⟩
  | .hbm, ⟨24, _⟩ => ⟨S50000x256, .f32⟩
  | .hbm, ⟨25, _⟩ => ⟨S_, .f32⟩
  | .hbm, ⟨26, _⟩ => ⟨S256, .f32⟩
  | .hbm, ⟨27, _⟩ => ⟨S1x256, .f32⟩
  | .hbm, ⟨28, _⟩ => ⟨S_, .f32⟩
  | .hbm, ⟨29, _⟩ => ⟨S1, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  concatenates_S20000x256_S15000x256_S15000x256_S50000x256_d0 : Shape.Concatenates [S20000x256, S15000x256, S15000x256] S50000x256 0
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  reducesTo_S1x256_S1_d1 : S1x256.ReducesTo [1] S1
  dot_S50000x256_S256x256_S50000x256_1_0_0_1_n_n_wf : DotDims.WF S50000x256 S256x256 S50000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelTerms.lean ====
import proofs.«115538_g3659312136369_retrytranche1_448_7_alg».proof.Proof.Gen.KernelIdeal.Skeleton

/-!
# What one grid point computes, as functions of its blocks

At a grid point the kernel holds a tile of each node type (`x0`: 4000 rows, `x1`, `x2`: 3000 rows), the gate's
weights `w` and bias `b`, and the running state `(pm, pz, ps)` it found in its three scratch rows.  It folds the three
tiles in, one after the other.  The functions below name what it leaves in the three scratch rows and, at the last
point, in the one-element output, as compositions of the body's arithmetic.
-/

noncomputable section

namespace Cert.KernelIdeal.Terms

open Idealize.ShloMosaic Cert.KernelIdeal Cert.KernelIdeal.Gen

variable {F : FTy → Type} [FloatOps F]

/-- The running maximum after the three tiles. -/
def newM (pm : Vec F S1x256 .f32) (w : Vec F S256x256 .f32) (b : Vec F S1x256 .f32)
    (x0 : Vec F S4000x256 .f32) (x1 x2 : Vec F S3000x256 .f32) : FVec F S1x256 .f32 :=
  k0_pay24 w (k0_pay6 b) (k0_pay8 pm w b x0) (k0_pay14 w b x1) x2

/-- The running sum of exponentials after the three tiles. -/
def sumZ (pm pz : Vec F S1x256 .f32) (w : Vec F S256x256 .f32) (b : Vec F S1x256 .f32)
    (x0 : Vec F S4000x256 .f32) (x1 x2 : Vec F S3000x256 .f32) : FVec F S1x256 .f32 :=
  k0_pay22 w (k0_pay6 b) (k0_pay8 pm w b x0) (k0_pay11 pm pz w b x0) (k0_pay13 w b x1) (k0_pay14 w b x1) x2

/-- The running feature-weighted sum after the three tiles. -/
def sumS (pm ps : Vec F S1x256 .f32) (w : Vec F S256x256 .f32) (b : Vec F S1x256 .f32)
    (x0 : Vec F S4000x256 .f32) (x1 x2 : Vec F S3000x256 .f32) : FVec F S1x256 .f32 :=
  k0_pay23 w (k0_pay6 b) (k0_pay8 pm w b x0) (k0_pay12 pm ps w b x0) x1 (k0_pay13 w b x1) (k0_pay14 w b x1) x2

/-- What is stored back into the second scratch row. -/
def newZ (pm pz : Vec F S1x256 .f32) (w : Vec F S256x256 .f32) (b : Vec F S1x256 .f32)
    (x0 : Vec F S4000x256 .f32) (x1 x2 : Vec F S3000x256 .f32) : FVec F S1x256 .f32 :=
  k0_pay25 w (k0_pay6 b) (k0_pay8 pm w b x0) (k0_pay11 pm pz w b x0) (k0_pay13 w b x1) (k0_pay14 w b x1) x2

/-- What is stored back into the third scratch row. -/
def newS (pm ps : Vec F S1x256 .f32) (w : Vec F S256x256 .f32) (b : Vec F S1x256 .f32)
    (x0 : Vec F S4000x256 .f32) (x1 x2 : Vec F S3000x256 .f32) : FVec F S1x256 .f32 :=
  k0_pay1 (sumS pm ps w b x0 x1 x2)

/-- The one-element output of the last point: the column quotients added up. -/
def outV (pm pz ps : Vec F S1x256 .f32) (w : Vec F S256x256 .f32) (b : Vec F S1x256 .f32)
    (x0 : Vec F S4000x256 .f32) (x1 x2 : Vec F S3000x256 .f32) : FVec F S1x1 .f32 :=
  k0_pay2 (sumZ pm pz w b x0 x1 x2) (sumS pm ps w b x0 x1 x2)

end Cert.KernelIdeal.Terms

end
-- ==== Proof.KernelPieces.lean ====
import proofs.«115538_g3659312136369_retrytranche1_448_7_alg».proof.Proof.Gen.KernelIdeal.Frame
import proofs.«115538_g3659312136369_retrytranche1_448_7_alg».proof.Proof.KernelTerms
import Idealize.ShloMosaic.Lib.Pipeline.Value
import Idealize.ShloMosaic.Lib.Tactic

/-!
# What each kind of grid point leaves behind

The first point resets the three scratch rows to `(-∞, 0, 0)` and folds its tiles into that; every later point folds
its tiles into what it finds in the scratch rows; the last point also writes the one-element output.  Each lemma
reads one buffer's final contents, found by running the body, as the corresponding function of the point's blocks.
-/

noncomputable section

open scoped BigOperators

namespace Cert.KernelIdeal.Pieces

open Idealize.ShloMosaic Idealize.ShloMosaic.TcCoe Idealize.SL.Sem
open Cert.KernelIdeal Cert.KernelIdeal.Gen

variable {F : FTy → Type} [FloatOps F]

/-- The three rows the first point resets the scratch to. -/
abbrev initM : Vec F S1x256 .f32 := k0_pay3
abbrev initZ : Vec F S1x256 .f32 := k0_pay4
abbrev initS : Vec F S1x256 .f32 := k0_pay5

/-- Every store and load of the body is at offsets `(0, 0)`: the zero offsets. -/
theorem hz : (![0, 0] : Fin 2 → Nat) = fun _ => 0 := funext fun a => by fin_cases a <;> rfl

/-- The first point: the maximum row is reset to `-∞`, read back, and the three tiles are folded into it (the last
    of its two whole-row stores is what stays). -/
theorem sout_A_0 (c : Dev nD) (i : grid0.Coords) (arg1 : Memref sig .tc .vmem S4000x256 .f32) (harg1 : arg1.IsWhole) (arg2 : Memref sig .tc .vmem S3000x256 .f32) (harg2 : arg2.IsWhole) (arg3 : Memref sig .tc .vmem S3000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S4000x256 .f32) (x1 : Vec F S3000x256 .f32) (x2 : Vec F S3000x256 .f32) (x3 : Vec F S256x256 .f32) (x4 : Vec F S1x256 .f32) :
    sout0_A_0 c i arg1 harg1 arg2 harg2 arg3 harg3 arg4 harg4 arg5 harg5 arg6 harg6 arg7 harg7 arg8 harg8 arg9 harg9 hc0 hc1 x0 x1 x2 x3 x4 = Terms.newM initM x3 x4 x0 x1 x2 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x256) hz]
  simp only [View.readCov_unit_zero (S := S1x256) _ hz, View.readAt_eq_ld, harg1.read_unread, harg2.read_unread, harg3.read_unread, harg4.read_unread, harg5.read_unread,
    View.ld_unit_zero (S := S1x256) hz, View.ld_unit_zero (S := S256x256) hz, View.ld_unit_zero (S := S4000x256) hz, View.ld_unit_zero (S := S3000x256) hz]
  rfl

/-- The first point: the sum-of-exponentials row is reset to `0` and the three tiles are folded into it. -/
theorem sout_A_1 (c : Dev nD) (i : grid0.Coords) (arg1 : Memref sig .tc .vmem S4000x256 .f32) (harg1 : arg1.IsWhole) (arg2 : Memref sig .tc .vmem S3000x256 .f32) (harg2 : arg2.IsWhole) (arg3 : Memref sig .tc .vmem S3000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S4000x256 .f32) (x1 : Vec F S3000x256 .f32) (x2 : Vec F S3000x256 .f32) (x3 : Vec F S256x256 .f32) (x4 : Vec F S1x256 .f32) :
    sout0_A_1 c i arg1 harg1 arg2 harg2 arg3 harg3 arg4 harg4 arg5 harg5 arg6 harg6 arg7 harg7 arg8 harg8 arg9 harg9 hc0 hc1 x0 x1 x2 x3 x4 = Terms.newZ initM initZ x3 x4 x0 x1 x2 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x256) hz]
  simp only [View.readCov_unit_zero (S := S1x256) _ hz, View.readAt_eq_ld, harg1.read_unread, harg2.read_unread, harg3.read_unread, harg4.read_unread, harg5.read_unread,
    View.ld_unit_zero (S := S1x256) hz, View.ld_unit_zero (S := S256x256) hz, View.ld_unit_zero (S := S4000x256) hz, View.ld_unit_zero (S := S3000x256) hz]
  rfl

/-- The first point: the weighted-sum row is reset to `0` and the three tiles are folded into it. -/
theorem sout_A_2 (c : Dev nD) (i : grid0.Coords) (arg1 : Memref sig .tc .vmem S4000x256 .f32) (harg1 : arg1.IsWhole) (arg2 : Memref sig .tc .vmem S3000x256 .f32) (harg2 : arg2.IsWhole) (arg3 : Memref sig .tc .vmem S3000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : cond0_0 i) (hc1 : ¬cond0_1 i) (x0 : Vec F S4000x256 .f32) (x1 : Vec F S3000x256 .f32) (x2 : Vec F S3000x256 .f32) (x3 : Vec F S256x256 .f32) (x4 : Vec F S1x256 .f32) :
    sout0_A_2 c i arg1 harg1 arg2 harg2 arg3 harg3 arg4 harg4 arg5 harg5 arg6 harg6 arg7 harg7 arg8 harg8 arg9 harg9 hc0 hc1 x0 x1 x2 x3 x4 = Terms.newS initM initS x3 x4 x0 x1 x2 := by
  unfold sout0_A_2
  rw [View.read_writes_eq_canon _ _ _ (scover0_A_2 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x256) hz]
  simp only [View.readCov_unit_zero (S := S1x256) _ hz, View.readAt_eq_ld, harg1.read_unread, harg2.read_unread, harg3.read_unread, harg4.read_unread, harg5.read_unread,
    View.ld_unit_zero (S := S1x256) hz, View.ld_unit_zero (S := S256x256) hz, View.ld_unit_zero (S := S4000x256) hz, View.ld_unit_zero (S := S3000x256) hz]
  rfl

/-- A middle point: the maximum row found (`xs0`) with the three tiles folded in — its one whole-row store's payload. -/
theorem sout_B_0 (c : Dev nD) (i : grid0.Coords) (arg1 : Memref sig .tc .vmem S4000x256 .f32) (harg1 : arg1.IsWhole) (arg2 : Memref sig .tc .vmem S3000x256 .f32) (harg2 : arg2.IsWhole) (arg3 : Memref sig .tc .vmem S3000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S4000x256 .f32) (x1 : Vec F S3000x256 .f32) (x2 : Vec F S3000x256 .f32) (x3 : Vec F S256x256 .f32) (x4 : Vec F S1x256 .f32) (xs0 : Vec F S1x256 .f32) (xs1 : Vec F S1x256 .f32) (xs2 : Vec F S1x256 .f32) :
    sout0_B_0 c i arg1 harg1 arg2 harg2 arg3 harg3 arg4 harg4 arg5 harg5 arg6 harg6 arg7 harg7 arg8 harg8 arg9 harg9 hc0 hc1 x0 x1 x2 x3 x4 xs0 xs1 xs2 = Terms.newM xs0 x3 x4 x0 x1 x2 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg7.read_unread, harg8.read_unread, harg9.read_unread,
    View.ld_unit_zero (S := S1x256) hz, View.ld_unit_zero (S := S256x256) hz, View.ld_unit_zero (S := S4000x256) hz, View.ld_unit_zero (S := S3000x256) hz]
  rfl

/-- A middle point: the sum-of-exponentials row found (`xs1`), rescaled and with the three tiles folded in. -/
theorem sout_B_1 (c : Dev nD) (i : grid0.Coords) (arg1 : Memref sig .tc .vmem S4000x256 .f32) (harg1 : arg1.IsWhole) (arg2 : Memref sig .tc .vmem S3000x256 .f32) (harg2 : arg2.IsWhole) (arg3 : Memref sig .tc .vmem S3000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S4000x256 .f32) (x1 : Vec F S3000x256 .f32) (x2 : Vec F S3000x256 .f32) (x3 : Vec F S256x256 .f32) (x4 : Vec F S1x256 .f32) (xs0 : Vec F S1x256 .f32) (xs1 : Vec F S1x256 .f32) (xs2 : Vec F S1x256 .f32) :
    sout0_B_1 c i arg1 harg1 arg2 harg2 arg3 harg3 arg4 harg4 arg5 harg5 arg6 harg6 arg7 harg7 arg8 harg8 arg9 harg9 hc0 hc1 x0 x1 x2 x3 x4 xs0 xs1 xs2 = Terms.newZ xs0 xs1 x3 x4 x0 x1 x2 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg7.read_unread, harg8.read_unread, harg9.read_unread,
    View.ld_unit_zero (S := S1x256) hz, View.ld_unit_zero (S := S256x256) hz, View.ld_unit_zero (S := S4000x256) hz, View.ld_unit_zero (S := S3000x256) hz]
  rfl

/-- A middle point: the weighted-sum row found (`xs2`), rescaled and with the three tiles folded in. -/
theorem sout_B_2 (c : Dev nD) (i : grid0.Coords) (arg1 : Memref sig .tc .vmem S4000x256 .f32) (harg1 : arg1.IsWhole) (arg2 : Memref sig .tc .vmem S3000x256 .f32) (harg2 : arg2.IsWhole) (arg3 : Memref sig .tc .vmem S3000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : ¬cond0_1 i) (x0 : Vec F S4000x256 .f32) (x1 : Vec F S3000x256 .f32) (x2 : Vec F S3000x256 .f32) (x3 : Vec F S256x256 .f32) (x4 : Vec F S1x256 .f32) (xs0 : Vec F S1x256 .f32) (xs1 : Vec F S1x256 .f32) (xs2 : Vec F S1x256 .f32) :
    sout0_B_2 c i arg1 harg1 arg2 harg2 arg3 harg3 arg4 harg4 arg5 harg5 arg6 harg6 arg7 harg7 arg8 harg8 arg9 harg9 hc0 hc1 x0 x1 x2 x3 x4 xs0 xs1 xs2 = Terms.newS xs0 xs2 x3 x4 x0 x1 x2 := by
  unfold sout0_B_2
  rw [View.read_writes_eq_canon _ _ _ (scover0_B_2 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg7.read_unread, harg8.read_unread, harg9.read_unread,
    View.ld_unit_zero (S := S1x256) hz, View.ld_unit_zero (S := S256x256) hz, View.ld_unit_zero (S := S4000x256) hz, View.ld_unit_zero (S := S3000x256) hz]
  rfl

/-- The last point leaves the same maximum row as a middle point. -/
theorem sout_C_0 (c : Dev nD) (i : grid0.Coords) (arg1 : Memref sig .tc .vmem S4000x256 .f32) (harg1 : arg1.IsWhole) (arg2 : Memref sig .tc .vmem S3000x256 .f32) (harg2 : arg2.IsWhole) (arg3 : Memref sig .tc .vmem S3000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S4000x256 .f32) (x1 : Vec F S3000x256 .f32) (x2 : Vec F S3000x256 .f32) (x3 : Vec F S256x256 .f32) (x4 : Vec F S1x256 .f32) (xs0 : Vec F S1x256 .f32) (xs1 : Vec F S1x256 .f32) (xs2 : Vec F S1x256 .f32) :
    sout0_C_0 c i arg1 harg1 arg2 harg2 arg3 harg3 arg4 harg4 arg5 harg5 arg6 harg6 arg7 harg7 arg8 harg8 arg9 harg9 hc0 hc1 x0 x1 x2 x3 x4 xs0 xs1 xs2 = Terms.newM xs0 x3 x4 x0 x1 x2 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg7.read_unread, harg8.read_unread, harg9.read_unread,
    View.ld_unit_zero (S := S1x256) hz, View.ld_unit_zero (S := S256x256) hz, View.ld_unit_zero (S := S4000x256) hz, View.ld_unit_zero (S := S3000x256) hz]
  rfl

/-- The last point leaves the same sum-of-exponentials row as a middle point. -/
theorem sout_C_1 (c : Dev nD) (i : grid0.Coords) (arg1 : Memref sig .tc .vmem S4000x256 .f32) (harg1 : arg1.IsWhole) (arg2 : Memref sig .tc .vmem S3000x256 .f32) (harg2 : arg2.IsWhole) (arg3 : Memref sig .tc .vmem S3000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S4000x256 .f32) (x1 : Vec F S3000x256 .f32) (x2 : Vec F S3000x256 .f32) (x3 : Vec F S256x256 .f32) (x4 : Vec F S1x256 .f32) (xs0 : Vec F S1x256 .f32) (xs1 : Vec F S1x256 .f32) (xs2 : Vec F S1x256 .f32) :
    sout0_C_1 c i arg1 harg1 arg2 harg2 arg3 harg3 arg4 harg4 arg5 harg5 arg6 harg6 arg7 harg7 arg8 harg8 arg9 harg9 hc0 hc1 x0 x1 x2 x3 x4 xs0 xs1 xs2 = Terms.newZ xs0 xs1 x3 x4 x0 x1 x2 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg7.read_unread, harg8.read_unread, harg9.read_unread,
    View.ld_unit_zero (S := S1x256) hz, View.ld_unit_zero (S := S256x256) hz, View.ld_unit_zero (S := S4000x256) hz, View.ld_unit_zero (S := S3000x256) hz]
  rfl

/-- The last point leaves the same weighted-sum row as a middle point. -/
theorem sout_C_2 (c : Dev nD) (i : grid0.Coords) (arg1 : Memref sig .tc .vmem S4000x256 .f32) (harg1 : arg1.IsWhole) (arg2 : Memref sig .tc .vmem S3000x256 .f32) (harg2 : arg2.IsWhole) (arg3 : Memref sig .tc .vmem S3000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S4000x256 .f32) (x1 : Vec F S3000x256 .f32) (x2 : Vec F S3000x256 .f32) (x3 : Vec F S256x256 .f32) (x4 : Vec F S1x256 .f32) (xs0 : Vec F S1x256 .f32) (xs1 : Vec F S1x256 .f32) (xs2 : Vec F S1x256 .f32) :
    sout0_C_2 c i arg1 harg1 arg2 harg2 arg3 harg3 arg4 harg4 arg5 harg5 arg6 harg6 arg7 harg7 arg8 harg8 arg9 harg9 hc0 hc1 x0 x1 x2 x3 x4 xs0 xs1 xs2 = Terms.newS xs0 xs2 x3 x4 x0 x1 x2 := by
  unfold sout0_C_2
  rw [View.read_writes_eq_canon _ _ _ (scover0_C_2 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg7.read_unread, harg8.read_unread, harg9.read_unread,
    View.ld_unit_zero (S := S1x256) hz, View.ld_unit_zero (S := S256x256) hz, View.ld_unit_zero (S := S4000x256) hz, View.ld_unit_zero (S := S3000x256) hz]
  rfl

/-- The last point's output: the column quotients of the two final rows, added up — its one store's payload. -/
theorem out_C_5 (c : Dev nD) (i : grid0.Coords) (arg1 : Memref sig .tc .vmem S4000x256 .f32) (harg1 : arg1.IsWhole) (arg2 : Memref sig .tc .vmem S3000x256 .f32) (harg2 : arg2.IsWhole) (arg3 : Memref sig .tc .vmem S3000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (hc0 : ¬cond0_0 i) (hc1 : cond0_1 i) (x0 : Vec F S4000x256 .f32) (x1 : Vec F S3000x256 .f32) (x2 : Vec F S3000x256 .f32) (x3 : Vec F S256x256 .f32) (x4 : Vec F S1x256 .f32) (xs0 : Vec F S1x256 .f32) (xs1 : Vec F S1x256 .f32) (xs2 : Vec F S1x256 .f32) :
    out0_C_5 c i arg1 harg1 arg2 harg2 arg3 harg3 arg4 harg4 arg5 harg5 arg6 harg6 arg7 harg7 arg8 harg8 arg9 harg9 hc0 hc1 x0 x1 x2 x3 x4 xs0 xs1 xs2 = Terms.outV xs0 xs1 xs2 x3 x4 x0 x1 x2 := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg7.read_unread, harg8.read_unread, harg9.read_unread,
    View.ld_unit_zero (S := S1x256) hz, View.ld_unit_zero (S := S256x256) hz, View.ld_unit_zero (S := S4000x256) hz, View.ld_unit_zero (S := S3000x256) hz]
  rfl

end Cert.KernelIdeal.Pieces

end
-- ==== Proof.LibRealSums.lean ====
/-
  Real-valued extended reals and the one law that needs them.

  On the extended reals addition is commutative and associative, but multiplication does not distribute over
  addition at the infinities. Sums of REAL numbers (extended reals that are neither infinity) behave as in the real
  field: they are closed under +, ·, max and finite sums, and a finite sum of reals times a real is the sum of the
  products. From that follows the exchange used for a graph layer: adding up, over the edges e that land on a node,
  the projected rows  ∑_k a(e,k) · w(k)  gives the same as projecting the added-up rows,
      ∑_e [e lands] ∑_k a(e,k) · w(k)  =  ∑_k (∑_e [e lands] a(e,k)) · w(k).
-/
import Mathlib.Data.EReal.Basic
import Mathlib.Data.EReal.Operations
import Mathlib.Algebra.BigOperators.Group.Finset.Basic
import Mathlib.Algebra.BigOperators.Ring.Finset
import Mathlib.Algebra.BigOperators.Group.Finset.Sigma

noncomputable section

open scoped BigOperators

namespace Cert.RealSums

/-- An extended real that is a real number. -/
def IsReal (x : EReal) : Prop := ∃ r : ℝ, x = (r : EReal)

theorem isReal_zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem isReal_sum {ι : Type} (s : Finset ι) (f : ι → EReal) (h : ∀ i ∈ s, IsReal (f i)) : IsReal (∑ i ∈ s, f i) :=
  Finset.sum_induction f IsReal (fun _ _ => IsReal.add) isReal_zero h

theorem isReal_ite {p : Prop} [Decidable p] {x : EReal} (hx : IsReal x) : IsReal (if p then x else 0) := by
  split
  · exact hx
  · exact isReal_zero

/-- Right distributivity for three real numbers. -/
theorem add_mul_of_real {a b w : EReal} (ha : IsReal a) (hb : IsReal b) (hw : IsReal w) : (a + b) * w = a * w + b * w := by
  obtain ⟨a, rfl⟩ := ha
  obtain ⟨b, rfl⟩ := hb
  obtain ⟨w, rfl⟩ := hw
  exact_mod_cast congrArg (fun t : ℝ => (t : EReal)) (add_mul a b w)

/-- A finite sum of reals times a real is the sum of the products. -/
theorem sum_mul_of_real {ι : Type} (s : Finset ι) (a : ι → EReal) (w : EReal) (ha : ∀ i, IsReal (a i)) (hw : IsReal w) :
    (∑ i ∈ s, a i) * w = ∑ i ∈ s, a i * w := by
  classical
  induction s using Finset.induction_on with
  | empty => simp
  | insert i s hi ih =>
    rw [Finset.sum_insert hi, Finset.sum_insert hi, add_mul_of_real (ha i) (isReal_sum s a fun j _ => ha j) hw, ih]

/-- Projecting the rows that land and adding them up is adding them up and projecting, for real data. -/
theorem sum_ite_sum_mul {ι κ : Type} [Fintype ι] [Fintype κ] (p : ι → Prop) [DecidablePred p] (a : ι → κ → EReal) (w : κ → EReal)
    (ha : ∀ e k, IsReal (a e k)) (hw : ∀ k, IsReal (w k)) :
    ∑ e, (if p e then ∑ k, a e k * w k else 0) = ∑ k, (∑ e, if p e then a e k else 0) * w k := by
  have h1 : ∀ k, (∑ e, if p e then a e k else 0) * w k = ∑ e, if p e then a e k * w k else 0 := by
    intro k
    rw [sum_mul_of_real _ _ _ (fun e => isReal_ite (ha e k)) (hw k)]
    refine Finset.sum_congr rfl fun e _ => ?_
    split
    · rfl
    · exact zero_mul _
  rw [Finset.sum_congr rfl fun k _ => h1 k, Finset.sum_comm]
  refine Finset.sum_congr rfl fun e _ => ?_
  split
  · rfl
  · exact Finset.sum_const_zero.symm

end Cert.RealSums

end
-- ==== Proof.LibSoftmaxShift.lean ====
/-
  A softmax that subtracts the row's greatest entry first does not see a shift of the whole row.

  Let l be a finite, non-empty family of real numbers and s a real number. The greatest of the entries l j − s is the
  greatest of the l j, less s; so every difference "entry minus greatest entry" is the same for the shifted family as
  for l itself. Whatever is then computed from those differences — an exponential of each, their sum, a quotient — is
  therefore the same for both. This is why softmax(−d²/2) over squared distances d² = |x|² + |c_j|² − 2<x, c_j> may drop
  the term |x|², and why attention scores may be moved by any per-row constant.

  The statements are on the extended reals, where a program's exact values live: the greatest entry is a fold of max
  from minus infinity (the bottom element), and the entries are real numbers seen as extended reals. With an infinite
  entry the law fails (∞ − ∞), so realness is a hypothesis, not a convenience. The exponential and the quotient are
  arbitrary functions here: only the differences matter.
-/
import Mathlib.Data.EReal.Basic
import Mathlib.Data.EReal.Operations
import Mathlib.Data.Finset.Fold
import Mathlib.Data.Finset.Max
import Mathlib.Data.Fintype.Basic
import Mathlib.Algebra.BigOperators.Group.Finset.Basic
import Mathlib.Tactic.Ring

noncomputable section

open scoped BigOperators

namespace Cert.LibSoftmaxShift

/-- A finite sum of real numbers, as an extended real, is the sum of them as extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- The greatest entry of a family of real numbers, folded from minus infinity, is the entry that dominates the others. -/
theorem foldMax_real {ι : Type} [Fintype ι] (l : ι → ℝ) (j0 : ι) (h : ∀ j, l j ≤ l j0) :
    (Finset.univ : Finset ι).fold max (⊥ : EReal) (fun j => ((l j : ℝ) : EReal)) = ((l j0 : ℝ) : EReal) := by
  refine le_antisymm ?_ ?_
  · exact (Finset.fold_max_le _).2 ⟨bot_le, fun j _ => EReal.coe_le_coe_iff.2 (h j)⟩
  · exact (Finset.le_fold_max _).2 (Or.inr ⟨j0, Finset.mem_univ _, le_rfl⟩)

/-- Entry minus greatest entry is the same for a real family and for the family moved by a real number. -/
theorem sub_foldMax_shift {ι : Type} [Fintype ι] [Nonempty ι] (f g : ι → EReal) (l : ι → ℝ) (s : ℝ)
    (hf : ∀ j, f j = ((l j : ℝ) : EReal)) (hg : ∀ j, g j = ((l j - s : ℝ) : EReal)) (k : ι) :
    g k - (Finset.univ : Finset ι).fold max (⊥ : EReal) g = f k - (Finset.univ : Finset ι).fold max (⊥ : EReal) f := by
  obtain ⟨j0, -, hj0⟩ := Finset.exists_max_image (Finset.univ : Finset ι) l Finset.univ_nonempty
  have hF : f = fun j => ((l j : ℝ) : EReal) := funext hf
  have hG : g = fun j => (((fun j => l j - s) j : ℝ) : EReal) := funext hg
  have mF : (Finset.univ : Finset ι).fold max (⊥ : EReal) f = ((l j0 : ℝ) : EReal) := by
    rw [hF]; exact foldMax_real l j0 fun j => hj0 j (Finset.mem_univ _)
  have mG : (Finset.univ : Finset ι).fold max (⊥ : EReal) g = ((l j0 - s : ℝ) : EReal) := by
    rw [hG]; exact foldMax_real (fun j => l j - s) j0 fun j => sub_le_sub_right (hj0 j (Finset.mem_univ _)) s
  rw [mF, mG, hf k, hg k, ← EReal.coe_sub, ← EReal.coe_sub]
  congr 1; ring

/-- So a softmax with the greatest entry subtracted first — any function `E` of each difference, any function `Q` of one
    of them and of their sum — is the same for both families. -/
theorem softmax_shift {ι : Type} [Fintype ι] [Nonempty ι] (E : EReal → EReal) (Q : EReal → EReal → EReal)
    (f g : ι → EReal) (l : ι → ℝ) (s : ℝ)
    (hf : ∀ j, f j = ((l j : ℝ) : EReal)) (hg : ∀ j, g j = ((l j - s : ℝ) : EReal)) (k : ι) :
    Q (E (g k - (Finset.univ : Finset ι).fold max (⊥ : EReal) g)) (∑ j, E (g j - (Finset.univ : Finset ι).fold max (⊥ : EReal) g))
      = Q (E (f k - (Finset.univ : Finset ι).fold max (⊥ : EReal) f)) (∑ j, E (f j - (Finset.univ : Finset ι).fold max (⊥ : EReal) f)) := by
  simp only [sub_foldMax_shift f g l s hf hg]

end Cert.LibSoftmaxShift

end
-- ==== Proof.LibOnlineSoftmax.lean ====
/-
  One-pass ("online") softmax sums over the extended reals — a general lemma file.
  (imports LibRealSums.lean and LibSoftmaxShift.lean beside it: copy all three)

  For one column with real logits `l n` and real features `x n` over a finite row type, a running state `(m, z, s)`
  summarises a set `A` of rows when `m` is the largest logit over `A`, `z` the sum of `exp (l n - m)` and `s` the sum of
  `x n * exp (l n - m)` over `A` (`Rep`; nothing summarised is `(-∞, 0, 0)`).  `step` folds one tile of `R` rows into a state
  the way a one-pass kernel does — new maximum `m' = max m (fold of max from -∞ over the tile)`, both sums rescaled by
  `exp (m - m')` plus the tile's terms, with the operations of the ideal float instance (`Ideal.exp`, `+`, `*` on `EReal`).
    * `rep_empty`   : `(-∞, 0, 0)` summarises no rows.
    * `rep_step`    : folding in a non-empty tile whose rows are new gives a summary of the union.
    * `div_of_rep`  : a summary of every row gives the softmax-weighted sum `colPool l x` by one `Ideal.div`.
    * `foldMax_coe` : the fold of `max` from `-∞` over real logits is their largest.
    * `ref_col`     : the two-pass form `0 + Σ x n * (exp (l n - M) / (0 + Σ exp (l k - M)))` is `colPool l x` too.
-/
import Idealize.ShloMosaic.PureOps.Ideal
import Mathlib.Analysis.SpecialFunctions.Exp
import proofs.«115538_g3659312136369_retrytranche1_448_7_alg».proof.Proof.LibRealSums
import proofs.«115538_g3659312136369_retrytranche1_448_7_alg».proof.Proof.LibSoftmaxShift

noncomputable section

open scoped BigOperators

namespace Cert.Pool

open Idealize.ShloMosaic

/-! ## The running state -/

/-- The largest logit of a tile, as a fold of `max` from `-∞`. -/
def tileMax {R : ℕ} (g : Fin R → EReal) : EReal := (Finset.univ : Finset (Fin R)).fold max ⊥ g

/-- One tile of `R` rows (logits `g`, features `x`) folded into a column's running state
    `(m, z, s)`: the new maximum `m'`, and the two sums rescaled by `exp (m - m')` plus the tile's terms. -/
def step {R : ℕ} (g x : Fin R → EReal) (st : EReal × EReal × EReal) : EReal × EReal × EReal :=
  (max st.1 (tileMax g),
   st.2.1 * Ideal.exp (st.1 - max st.1 (tileMax g)) + ∑ r, Ideal.exp (g r - max st.1 (tileMax g)),
   st.2.2 * Ideal.exp (st.1 - max st.1 (tileMax g)) + ∑ r, x r * Ideal.exp (g r - max st.1 (tileMax g)))

/-- The state `st` summarises the rows in `A` (logits `l`, features `x`): nothing yet is `(-∞, 0, 0)`;
    otherwise the largest logit `M` over `A`, the sum of `exp (l n - M)` and the sum of `x n * exp (l n - M)`. -/
def Rep {N : Type} (l x : N → ℝ) (A : Finset N) (st : EReal × EReal × EReal) : Prop :=
  (A = ∅ → st = (⊥, 0, 0)) ∧
  ∀ h : A.Nonempty, st =
    (((A.sup' h l : ℝ) : EReal),
     ((∑ n ∈ A, Real.exp (l n - A.sup' h l) : ℝ) : EReal),
     ((∑ n ∈ A, x n * Real.exp (l n - A.sup' h l) : ℝ) : EReal))

/-- The pooled value of one column: the softmax-weighted sum of its features. -/
def colPool {N : Type} [Fintype N] [Nonempty N] (l x : N → ℝ) : ℝ :=
  (∑ n, x n * Real.exp (l n - Finset.univ.sup' Finset.univ_nonempty l))
    / (∑ n, Real.exp (l n - Finset.univ.sup' Finset.univ_nonempty l))

/-! ## The laws -/

/-! ### Maxima and sums of real data seen as extended reals -/

/-- The larger of two reals, seen as an extended real. -/
private theorem max_coe (a b : ℝ) : max ((a : ℝ) : EReal) ((b : ℝ) : EReal) = ((max a b : ℝ) : EReal) :=
  (EReal.coe_strictMono.monotone.map_max).symm

/-- The fold of `max` from `-∞` over the real entries of a non-empty finite set is their largest. -/
private theorem fold_max_coe {ι : Type} (s : Finset ι) (hs : s.Nonempty) (f : ι → ℝ) :
    s.fold max (⊥ : EReal) (fun i => ((f i : ℝ) : EReal)) = ((s.sup' hs f : ℝ) : EReal) := by
  refine le_antisymm ?_ ?_
  · exact (Finset.fold_max_le _).2 ⟨bot_le, fun j hj => EReal.coe_le_coe_iff.2 (Finset.le_sup' f hj)⟩
  · obtain ⟨j0, hj0, h0⟩ := Finset.exists_mem_eq_sup' hs f
    rw [h0]
    exact (Finset.le_fold_max _).2 (Or.inr ⟨j0, hj0, le_rfl⟩)

/-- A state built from a real number `M` that is the largest logit over the non-empty set `C` summarises `C`. -/
private theorem rep_of {N : Type} (l x : N → ℝ) (C : Finset N) (hC : C.Nonempty) (M : ℝ) (hM : C.sup' hC l = M)
    (st : EReal × EReal × EReal)
    (hst : st = (((M : ℝ) : EReal), ((∑ n ∈ C, Real.exp (l n - M) : ℝ) : EReal),
      ((∑ n ∈ C, x n * Real.exp (l n - M) : ℝ) : EReal))) :
    Rep l x C st := by
  subst hM
  exact ⟨fun h0 => absurd hC (h0 ▸ Finset.not_nonempty_empty), fun _ => hst⟩

/-- The tile's largest logit is the largest logit over the tile's rows. -/
private theorem tileMax_eq {N : Type} [DecidableEq N] (l : N → ℝ) {R : ℕ} (e : Fin R → N) (g : Fin R → EReal)
    (hg : ∀ r, g r = ((l (e r) : ℝ) : EReal)) (hB : (Finset.univ.image e).Nonempty) :
    tileMax g = (((Finset.univ.image e).sup' hB l : ℝ) : EReal) := by
  have hgf : g = fun r => (((fun r => l (e r)) r : ℝ) : EReal) := funext hg
  rw [tileMax, hgf, fold_max_coe Finset.univ hB.of_image (fun r => l (e r)), Finset.sup'_image]
  rfl

/-- The tile's exponentials, shifted by a real `M`, add up to the sum over the tile's rows. -/
private theorem tile_sum_exp {N : Type} [DecidableEq N] (l : N → ℝ) {R : ℕ} (e : Fin R → N)
    (he : Function.Injective e) (g : Fin R → EReal) (hg : ∀ r, g r = ((l (e r) : ℝ) : EReal)) (M : ℝ) :
    ∑ r, Ideal.exp (g r - ((M : ℝ) : EReal)) = ((∑ n ∈ Finset.univ.image e, Real.exp (l n - M) : ℝ) : EReal) := by
  rw [Finset.sum_image (fun a _ b _ h => he h), LibSoftmaxShift.coe_sum]
  refine Finset.sum_congr rfl fun r _ => ?_
  rw [hg r, ← EReal.coe_sub, Ideal.exp_coe]

/-- The same with each exponential weighted by the row's feature. -/
private theorem tile_sum_xexp {N : Type} [DecidableEq N] (l x : N → ℝ) {R : ℕ} (e : Fin R → N)
    (he : Function.Injective e) (g xt : Fin R → EReal) (hg : ∀ r, g r = ((l (e r) : ℝ) : EReal))
    (hx : ∀ r, xt r = ((x (e r) : ℝ) : EReal)) (M : ℝ) :
    ∑ r, xt r * Ideal.exp (g r - ((M : ℝ) : EReal))
      = ((∑ n ∈ Finset.univ.image e, x n * Real.exp (l n - M) : ℝ) : EReal) := by
  rw [Finset.sum_image (fun a _ b _ h => he h), LibSoftmaxShift.coe_sum]
  refine Finset.sum_congr rfl fun r _ => ?_
  rw [hg r, hx r, ← EReal.coe_sub, Ideal.exp_coe, ← EReal.coe_mul]

/-- Rescaling: `exp (l n - M) * exp (M - M') = exp (l n - M')`, summed over a set. -/
private theorem rescale_sum {N : Type} (l : N → ℝ) (A : Finset N) (M M' : ℝ) :
    (∑ n ∈ A, Real.exp (l n - M)) * Real.exp (M - M') = ∑ n ∈ A, Real.exp (l n - M') := by
  rw [Finset.sum_mul]
  refine Finset.sum_congr rfl fun n _ => ?_
  rw [← Real.exp_add]
  congr 1
  ring

/-- The same with weights. -/
private theorem rescale_xsum {N : Type} (l x : N → ℝ) (A : Finset N) (M M' : ℝ) :
    (∑ n ∈ A, x n * Real.exp (l n - M)) * Real.exp (M - M') = ∑ n ∈ A, x n * Real.exp (l n - M') := by
  rw [Finset.sum_mul]
  refine Finset.sum_congr rfl fun n _ => ?_
  rw [mul_assoc, ← Real.exp_add]
  congr 2
  ring

/-- Nothing summarised yet. -/
theorem rep_empty {N : Type} (l x : N → ℝ) : Rep l x ∅ (⊥, 0, 0) :=
  ⟨fun _ => rfl, fun h => absurd h Finset.not_nonempty_empty⟩

/-- Folding a tile in: if `st` summarises `A` and the tile's `R > 0` rows are the rows `e r` (distinct, none in `A`),
    the updated state summarises `A` together with the tile's rows. -/
theorem rep_step {N : Type} [DecidableEq N] (l x : N → ℝ) (A : Finset N) (st : EReal × EReal × EReal)
    (hA : Rep l x A st) {R : ℕ} (hR : 0 < R) (e : Fin R → N) (he : Function.Injective e) (hd : ∀ r, e r ∉ A)
    (g xt : Fin R → EReal) (hg : ∀ r, g r = ((l (e r) : ℝ) : EReal)) (hx : ∀ r, xt r = ((x (e r) : ℝ) : EReal)) :
    Rep l x (A ∪ Finset.univ.image e) (step g xt st) := by
  have hB : (Finset.univ.image e).Nonempty := ⟨e ⟨0, hR⟩, Finset.mem_image.2 ⟨⟨0, hR⟩, Finset.mem_univ _, rfl⟩⟩
  have hT := tileMax_eq l e g hg hB
  rcases A.eq_empty_or_nonempty with h0 | hne
  · -- nothing before the tile: the state is (-∞, 0, 0), the new maximum is the tile's, the old sums vanish
    subst h0
    rw [hA.1 rfl, Finset.empty_union]
    refine rep_of l x _ hB _ rfl _ ?_
    rw [step, hT]
    simp only [bot_sup_eq, zero_mul, zero_add]
    rw [tile_sum_exp l e he g hg, tile_sum_xexp l x e he g xt hg hx]
  · -- rows before the tile: all three entries are real numbers, and the sums rescale
    have hdis : Disjoint A (Finset.univ.image e) := Finset.disjoint_left.2 fun a ha hb => by
      obtain ⟨r, -, rfl⟩ := Finset.mem_image.1 hb
      exact hd r ha
    refine rep_of l x _ (hne.mono Finset.subset_union_left) _ (Finset.sup'_union hne hB l) _ ?_
    rw [hA.2 hne, step, hT]
    simp only [max_coe]
    rw [← EReal.coe_sub, Ideal.exp_coe, ← EReal.coe_mul, ← EReal.coe_mul,
      tile_sum_exp l e he g hg, tile_sum_xexp l x e he g xt hg hx, ← EReal.coe_add, ← EReal.coe_add,
      rescale_sum, rescale_xsum, Finset.sum_union hdis, Finset.sum_union hdis]

/-- The normalising sum is positive: it adds positive exponentials over a non-empty set. -/
private theorem sum_exp_pos {N : Type} [Fintype N] [Nonempty N] (l : N → ℝ) (M : ℝ) :
    0 < ∑ n, Real.exp (l n - M) :=
  Finset.sum_pos (fun n _ => Real.exp_pos _) Finset.univ_nonempty

/-- A state that summarises every row gives the column's pooled value by one division. -/
theorem div_of_rep {N : Type} [Fintype N] [Nonempty N] (l x : N → ℝ) (st : EReal × EReal × EReal)
    (h : Rep l x Finset.univ st) : Ideal.div st.2.2 st.2.1 = ((colPool l x : ℝ) : EReal) := by
  rw [h.2 Finset.univ_nonempty]
  show Ideal.div ((_ : ℝ) : EReal) ((_ : ℝ) : EReal) = _
  rw [Ideal.div_coe (sum_exp_pos l _).ne', ← EReal.coe_mul, colPool, mul_one_div]

/-- The fold of `max` from `-∞` over real logits is their largest. -/
theorem foldMax_coe {N : Type} [Fintype N] [Nonempty N] (l : N → ℝ) :
    (Finset.univ : Finset N).fold max (⊥ : EReal) (fun n => ((l n : ℝ) : EReal))
      = ((Finset.univ.sup' Finset.univ_nonempty l : ℝ) : EReal) :=
  fold_max_coe Finset.univ Finset.univ_nonempty l

/-- The two-pass form: with `Mref` the largest logit, the sum over the rows of the feature times the
    normalised weight `exp (l n - M) / Z` is the pooled value. -/
theorem ref_col {N : Type} [Fintype N] [Nonempty N] (l x : N → ℝ) (L X : N → EReal)
    (hL : ∀ n, L n = ((l n : ℝ) : EReal)) (hX : ∀ n, X n = ((x n : ℝ) : EReal)) (Mref : EReal)
    (hM : Mref = ((Finset.univ.sup' Finset.univ_nonempty l : ℝ) : EReal)) :
    (0 : EReal) + ∑ n, X n * Ideal.div (Ideal.exp (L n - Mref)) ((0 : EReal) + ∑ k, Ideal.exp (L k - Mref))
      = ((colPool l x : ℝ) : EReal) := by
  subst hM
  have hZ : (0 : EReal) + ∑ k, Ideal.exp (L k - ((Finset.univ.sup' Finset.univ_nonempty l : ℝ) : EReal))
      = ((∑ k, Real.exp (l k - Finset.univ.sup' Finset.univ_nonempty l) : ℝ) : EReal) := by
    rw [zero_add, LibSoftmaxShift.coe_sum]
    refine Finset.sum_congr rfl fun k _ => ?_
    rw [hL k, ← EReal.coe_sub, Ideal.exp_coe]
  have key : ∀ n, X n * Ideal.div (Ideal.exp (L n - ((Finset.univ.sup' Finset.univ_nonempty l : ℝ) : EReal)))
        ((∑ k, Real.exp (l k - Finset.univ.sup' Finset.univ_nonempty l) : ℝ) : EReal)
      = ((x n * Real.exp (l n - Finset.univ.sup' Finset.univ_nonempty l)
          / ∑ k, Real.exp (l k - Finset.univ.sup' Finset.univ_nonempty l) : ℝ) : EReal) := by
    intro n
    rw [hX n, hL n, ← EReal.coe_sub, Ideal.exp_coe, Ideal.div_coe (sum_exp_pos l _).ne', ← EReal.coe_mul,
      ← EReal.coe_mul, mul_one_div, mul_div_assoc]
  rw [hZ, zero_add, Finset.sum_congr rfl (fun n _ => key n), ← LibSoftmaxShift.coe_sum, colPool, Finset.sum_div]

end Cert.Pool

end
-- ==== Proof.PoolSpec.lean ====
import proofs.«115538_g3659312136369_retrytranche1_448_7_alg».proof.Proof.LibOnlineSoftmax
import Idealize.ShloMosaic.Lib.ValueIdx

/-!
# Attention pooling over the nodes, one feature column at a time

For a feature column the nodes' logits `l n` give softmax weights `exp (l n - M) / Z` with `M` the largest
logit and `Z` the sum of the `exp (l n - M)`; the pooled value of the column is the weighted sum of the column's
features `x n`, and the readout is the sum of the pooled values over the columns.

The sum can be formed in one pass over tiles of rows by carrying `(m, z, s)`: the largest logit so far, the sum
of `exp (l n - m)` so far and the sum of `x n * exp (l n - m)` so far; a new tile rescales the old sums by
`exp (m - m')` where `m'` is the new largest logit.  The one-tile update `step`, the relation `Rep` between a state and the set of rows it summarises and the
pooled value `colPool` of a column, with their laws, are in the general file beside this one; here are one grid
point's three tiles folded into a column's state, and the table of features, logits and the readout for the three
node types.
-/

noncomputable section

open scoped BigOperators

namespace Cert.Pool

open Idealize.ShloMosaic Idealize.ShloMosaic.ValueIdx

/-! ## One grid point: three tiles folded in -/

/-- A tile's logits in column `q`: each row of the tile times column `q` of the weights, plus the bias. -/
def tileLogit {R : ℕ} (x : (⟨2, ![R, 256]⟩ : Shape).Idx → EReal) (w : (⟨2, ![256, 256]⟩ : Shape).Idx → EReal)
    (b : (⟨2, ![1, 256]⟩ : Shape).Idx → EReal) (q : Fin 256) : Fin R → EReal :=
  fun r => (∑ a : Fin 256, x (ix2 r a) * w (ix2 a q)) + b (ix2 0 q)

/-- A tile's features in column `q`. -/
def tileCol {R : ℕ} (x : (⟨2, ![R, 256]⟩ : Shape).Idx → EReal) (q : Fin 256) : Fin R → EReal :=
  fun r => x (ix2 r q)

/-- Column `q`'s state after a grid point: the state found in the three scratch rows, with the point's tile of each
    node type folded in, first the 4000-row tile, then the two 3000-row tiles. -/
def col3 (pm pz ps : (⟨2, ![1, 256]⟩ : Shape).Idx → EReal) (w : (⟨2, ![256, 256]⟩ : Shape).Idx → EReal)
    (b : (⟨2, ![1, 256]⟩ : Shape).Idx → EReal) (x0 : (⟨2, ![4000, 256]⟩ : Shape).Idx → EReal)
    (x1 x2 : (⟨2, ![3000, 256]⟩ : Shape).Idx → EReal) (q : Fin 256) : EReal × EReal × EReal :=
  step (tileLogit x2 w b q) (tileCol x2 q)
    (step (tileLogit x1 w b q) (tileCol x1 q)
      (step (tileLogit x0 w b q) (tileCol x0 q) (pm (ix2 0 q), pz (ix2 0 q), ps (ix2 0 q))))

/-! ## The three node types as one table -/

/-- The features of all nodes as reals: rows 0–19999 the first node type, 20000–34999 the second,
    35000–49999 the third. -/
def feat (x0 : (⟨2, ![20000, 256]⟩ : Shape).Idx → EReal) (x1 x2 : (⟨2, ![15000, 256]⟩ : Shape).Idx → EReal)
    (n : Fin 50000) (a : Fin 256) : ℝ :=
  if h0 : n.val < 20000 then (x0 (ix2 ⟨n.val, h0⟩ a)).toReal
  else if h1 : n.val < 35000 then (x1 (ix2 ⟨n.val - 20000, by omega⟩ a)).toReal
  else (x2 (ix2 ⟨n.val - 35000, by omega⟩ a)).toReal

/-- The gate's logit of node `n` in column `q`: the row of features times column `q` of the weights, plus the bias. -/
def logit (x0 : (⟨2, ![20000, 256]⟩ : Shape).Idx → EReal) (x1 x2 : (⟨2, ![15000, 256]⟩ : Shape).Idx → EReal)
    (w : (⟨2, ![256, 256]⟩ : Shape).Idx → EReal) (b : (⟨1, ![256]⟩ : Shape).Idx → EReal) (n : Fin 50000) (q : Fin 256) : ℝ :=
  (∑ a : Fin 256, feat x0 x1 x2 n a * (w (ix2 a q)).toReal) + (b (ix1 q)).toReal

/-- The readout: the pooled values of the 256 columns added up. -/
def pooled (x0 : (⟨2, ![20000, 256]⟩ : Shape).Idx → EReal) (x1 x2 : (⟨2, ![15000, 256]⟩ : Shape).Idx → EReal)
    (w : (⟨2, ![256, 256]⟩ : Shape).Idx → EReal) (b : (⟨1, ![256]⟩ : Shape).Idx → EReal) : (⟨1, ![1]⟩ : Shape).Idx → EReal :=
  fun _ => ((∑ q : Fin 256, colPool (fun n => logit x0 x1 x2 w b n q) (fun n => feat x0 x1 x2 n q) : ℝ) : EReal)

end Cert.Pool

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.KernelCols.lean ====
import proofs.«115538_g3659312136369_retrytranche1_448_7_alg».proof.Proof.Gen.KernelIdeal.Skeleton
import proofs.«115538_g3659312136369_retrytranche1_448_7_alg».proof.Proof.KernelTerms
import proofs.«115538_g3659312136369_retrytranche1_448_7_alg».proof.Proof.PoolSpec
import proofs.«115538_g3659312136369_retrytranche1_448_7_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
# One grid point, column by column

Read at column `q` over the extended reals, what a grid point leaves in its three scratch rows is the state it found
there with its three tiles folded in (`Cert.Pool.col3`): the tile's logits are its rows times column `q` of the weights plus
the bias, the tile maximum is the fold of `max` from `-∞`, and the two sums run over the tile's rows.  The last point's output is the
sum over the columns of the quotients of the two running sums.
-/

noncomputable section

open scoped BigOperators

namespace Cert.KernelIdeal.Cols

open Idealize.ShloMosaic Idealize.ShloMosaic.ValueIdx Idealize.ShloMosaic.TcCoe Idealize.SL.Sem
open Cert.KernelIdeal Cert.KernelIdeal.Gen Cert.Pool

/-! ## The layout operations and reductions of the body, read at a column -/

/-- The word `0xFF800000` is `-∞`. -/
theorem neg_inf_word : Ideal.ofBits .f32 0xFF800000#32 = (⊥ : EReal) := by simp [Ideal.ofBits, Ideal.ieee]

/-- The maximum over the rows of an `[R, 256]` array, cast to one row, is at column `q` the fold of `max` from `-∞`
    over that column's entries. -/
theorem rowmax_apply {R : ℕ} (g : FVec Ideal ⟨2, ![R, 256]⟩ .f32)
    (h : (⟨2, ![R, 256]⟩ : Shape).Reduces [(0 : Fin 2)] S256) (hφ : FKind.Formats .f32)
    (hacc : (0xFF800000#32 : BitVec 32) = FKind.maximumf.neutral .f32 hφ) (hc : S256.ShapeCasts S1x256) (q : Fin 256) :
    shapeCast S1x256 (multiReduction .maximumf [(0 : Fin 2)] S256 g 0xFF800000#32 h hφ hacc) hc (ix2 0 q)
      = tileMax fun r : Fin R => g (ix2 r q) := by
  refine (shapeCast_a_1a_apply _ hc 0 q).trans ?_
  refine (Ideal.multiReduction_maximumf_single g _ h hφ hacc (ix1 q)).trans ?_
  unfold tileMax
  rw [Ideal.ofBits_def, neg_inf_word]
  refine Finset.fold_congr fun r _ => congrArg g ?_
  funext c
  apply Fin.ext
  match c with
  | ⟨0, _⟩ => rfl
  | ⟨1, _⟩ => rfl

/-- The sum over the rows of an `[R, 256]` array, cast to one row, is at column `q` the sum of that column's entries. -/
theorem rowsum_apply {R : ℕ} (g : FVec Ideal ⟨2, ![R, 256]⟩ .f32)
    (h : (⟨2, ![R, 256]⟩ : Shape).Reduces [(0 : Fin 2)] S256) (hφ : FKind.Formats .f32)
    (hacc : (0x00000000#32 : BitVec 32) = FKind.add.neutral .f32 hφ) (hc : S256.ShapeCasts S1x256) (q : Fin 256) :
    shapeCast S1x256 (multiReduction .add [(0 : Fin 2)] S256 g 0x00000000#32 h hφ hacc) hc (ix2 0 q)
      = ∑ r : Fin R, g (ix2 r q) := by
  refine (shapeCast_a_1a_apply _ hc 0 q).trans ?_
  refine (Ideal.multiReduction_add_single g _ h hφ hacc (ix1 q)).trans ?_
  refine Finset.sum_congr rfl fun r _ => congrArg g ?_
  funext c
  apply Fin.ext
  match c with
  | ⟨0, _⟩ => rfl
  | ⟨1, _⟩ => rfl

/-! ## The index maps of the two products -/

theorem lhs4000_0 (i : S4000x256.Idx) (k : dot_S4000x256_S256x256_S4000x256_1_0_0_1_n_n.contr.Idx) :
    (dot_S4000x256_S256x256_S4000x256_1_0_0_1_n_n.lhsIdx i k 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem lhs4000_1 (i : S4000x256.Idx) (k : dot_S4000x256_S256x256_S4000x256_1_0_0_1_n_n.contr.Idx) :
    (dot_S4000x256_S256x256_S4000x256_1_0_0_1_n_n.lhsIdx i k 1).val = (k ⟨0, by decide⟩).val :=
  dot_S4000x256_S256x256_S4000x256_1_0_0_1_n_n.lhsIdx_val_of_single rfl i k
theorem rhs4000_0 (i : S4000x256.Idx) (k : dot_S4000x256_S256x256_S4000x256_1_0_0_1_n_n.contr.Idx) :
    (dot_S4000x256_S256x256_S4000x256_1_0_0_1_n_n.rhsIdx i k 0).val = (k ⟨0, by decide⟩).val :=
  dot_S4000x256_S256x256_S4000x256_1_0_0_1_n_n.rhsIdx_val_of_single rfl i k
theorem rhs4000_1 (i : S4000x256.Idx) (k : dot_S4000x256_S256x256_S4000x256_1_0_0_1_n_n.contr.Idx) :
    (dot_S4000x256_S256x256_S4000x256_1_0_0_1_n_n.rhsIdx i k 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

theorem lhs3000_0 (i : S3000x256.Idx) (k : dot_S3000x256_S256x256_S3000x256_1_0_0_1_n_n.contr.Idx) :
    (dot_S3000x256_S256x256_S3000x256_1_0_0_1_n_n.lhsIdx i k 0).val = (i 0).val := by
  unfold DotDims.lhsIdx
  rw [dif_neg (show ¬(0 : Fin S3000x256.rank) ∈ dot_S3000x256_S256x256_S3000x256_1_0_0_1_n_n.lhsBatch by decide), dif_pos (show (0 : Fin S3000x256.rank) ∈ dot_S3000x256_S256x256_S3000x256_1_0_0_1_n_n.lhsNonContracting by decide)]
  rfl
theorem lhs3000_1 (i : S3000x256.Idx) (k : dot_S3000x256_S256x256_S3000x256_1_0_0_1_n_n.contr.Idx) :
    (dot_S3000x256_S256x256_S3000x256_1_0_0_1_n_n.lhsIdx i k 1).val = (k ⟨0, by decide⟩).val :=
  dot_S3000x256_S256x256_S3000x256_1_0_0_1_n_n.lhsIdx_val_of_single rfl i k
theorem rhs3000_0 (i : S3000x256.Idx) (k : dot_S3000x256_S256x256_S3000x256_1_0_0_1_n_n.contr.Idx) :
    (dot_S3000x256_S256x256_S3000x256_1_0_0_1_n_n.rhsIdx i k 0).val = (k ⟨0, by decide⟩).val :=
  dot_S3000x256_S256x256_S3000x256_1_0_0_1_n_n.rhsIdx_val_of_single rfl i k
theorem rhs3000_1 (i : S3000x256.Idx) (k : dot_S3000x256_S256x256_S3000x256_1_0_0_1_n_n.contr.Idx) :
    (dot_S3000x256_S256x256_S3000x256_1_0_0_1_n_n.rhsIdx i k 1).val = (i 1).val := by
  unfold DotDims.rhsIdx
  rw [dif_neg (show ¬(1 : Fin S256x256.rank) ∈ dot_S3000x256_S256x256_S3000x256_1_0_0_1_n_n.rhsBatch by decide), dif_pos (show (1 : Fin S256x256.rank) ∈ dot_S3000x256_S256x256_S3000x256_1_0_0_1_n_n.rhsNonContracting by decide)]
  rfl

/-! ## The logits of a tile -/

/-- The bias row, cast to its own shape, is itself. -/
theorem pay6_eq (b : Vec Ideal S1x256 .f32) : k0_pay6 (F := Ideal) b = b := by
  unfold k0_pay6
  exact shapeCast_self b _

/-- The 4000-row tile's logits: its rows times the weights' column, plus the bias. -/
theorem pay7_apply (w : Vec Ideal S256x256 .f32) (b : Vec Ideal S1x256 .f32) (x : Vec Ideal S4000x256 .f32)
    (r : Fin 4000) (q : Fin 256) :
    k0_pay7 (F := Ideal) w b x (ix2 r q) = tileLogit x w b q r := by
  unfold k0_pay7
  rw [pay6_eq]
  refine (congrArg₂ (· + ·)
    (Cert.LibPlainDot.matmul_zero_plain dot_S4000x256_S256x256_S4000x256_1_0_0_1_n_n rfl rfl
      lhs4000_0 lhs4000_1 rhs4000_0 rhs4000_1 none x w r q)
    (broadcastTo_1b_ab_apply b _ r q)).trans ?_
  rfl

/-- The 3000-row tiles' logits, as the second tile computes them. -/
theorem pay13_apply (w : Vec Ideal S256x256 .f32) (b : Vec Ideal S1x256 .f32) (x : Vec Ideal S3000x256 .f32)
    (r : Fin 3000) (q : Fin 256) :
    k0_pay13 (F := Ideal) w b x (ix2 r q) = tileLogit x w b q r := by
  unfold k0_pay13
  rw [pay6_eq]
  refine (congrArg₂ (· + ·)
    (Cert.LibPlainDot.matmul_zero_plain dot_S3000x256_S256x256_S3000x256_1_0_0_1_n_n rfl rfl
      lhs3000_0 lhs3000_1 rhs3000_0 rhs3000_1 none x w r q)
    (broadcastTo_1b_ab_apply b _ r q)).trans ?_
  rfl

/-- The same, as the third tile computes them, over the bias row already cast. -/
theorem pay18_apply (w : Vec Ideal S256x256 .f32) (v8 : FVec Ideal S1x256 .f32) (x : Vec Ideal S3000x256 .f32)
    (r : Fin 3000) (q : Fin 256) :
    k0_pay18 (F := Ideal) w v8 x (ix2 r q) = tileLogit x w v8 q r := by
  unfold k0_pay18
  refine (congrArg₂ (· + ·)
    (Cert.LibPlainDot.matmul_zero_plain dot_S3000x256_S256x256_S3000x256_1_0_0_1_n_n rfl rfl
      lhs3000_0 lhs3000_1 rhs3000_0 rhs3000_1 none x w r q)
    (broadcastTo_1b_ab_apply v8 _ r q)).trans ?_
  rfl

/-! ## The first tile folded into the state found -/

/-- The running maximum after the first tile. -/
theorem pay8_apply (pm : Vec Ideal S1x256 .f32) (w : Vec Ideal S256x256 .f32) (b : Vec Ideal S1x256 .f32)
    (x : Vec Ideal S4000x256 .f32) (q : Fin 256) :
    k0_pay8 (F := Ideal) pm w b x (ix2 0 q) = max (pm (ix2 0 q)) (tileMax (tileLogit x w b q)) := by
  unfold k0_pay8
  refine (maximumf_apply pm _ (ix2 0 q)).trans ?_
  exact congrArg (max (pm (ix2 0 q))) ((rowmax_apply (k0_pay7 w b x) _ _ _ _ q).trans
    (congrArg tileMax (funext fun r => pay7_apply w b x r q)))

/-- The factor that rescales the sums found, after the first tile. -/
theorem pay9_apply (pm : Vec Ideal S1x256 .f32) (w : Vec Ideal S256x256 .f32) (b : Vec Ideal S1x256 .f32)
    (x : Vec Ideal S4000x256 .f32) (q : Fin 256) :
    k0_pay9 (F := Ideal) pm w b x (ix2 0 q)
      = Ideal.exp (pm (ix2 0 q) - max (pm (ix2 0 q)) (tileMax (tileLogit x w b q))) := by
  unfold k0_pay9
  exact congrArg (fun m => Ideal.exp (pm (ix2 0 q) - m)) (pay8_apply pm w b x q)

/-- The first tile's exponentials, shifted by the new maximum. -/
theorem pay10_apply (pm : Vec Ideal S1x256 .f32) (w : Vec Ideal S256x256 .f32) (b : Vec Ideal S1x256 .f32)
    (x : Vec Ideal S4000x256 .f32) (r : Fin 4000) (q : Fin 256) :
    k0_pay10 (F := Ideal) pm w b x (ix2 r q)
      = Ideal.exp (tileLogit x w b q r - max (pm (ix2 0 q)) (tileMax (tileLogit x w b q))) := by
  unfold k0_pay10
  exact congrArg₂ (fun a m => Ideal.exp (a - m)) (pay7_apply w b x r q)
    ((broadcastTo_1b_ab_apply (k0_pay8 pm w b x) _ r q).trans (pay8_apply pm w b x q))

/-- The running sum of exponentials after the first tile. -/
theorem pay11_apply (pm pz : Vec Ideal S1x256 .f32) (w : Vec Ideal S256x256 .f32) (b : Vec Ideal S1x256 .f32)
    (x : Vec Ideal S4000x256 .f32) (q : Fin 256) :
    k0_pay11 (F := Ideal) pm pz w b x (ix2 0 q)
      = pz (ix2 0 q) * Ideal.exp (pm (ix2 0 q) - max (pm (ix2 0 q)) (tileMax (tileLogit x w b q)))
        + ∑ r : Fin 4000, Ideal.exp (tileLogit x w b q r - max (pm (ix2 0 q)) (tileMax (tileLogit x w b q))) := by
  unfold k0_pay11
  exact congrArg₂ (fun e s => pz (ix2 0 q) * e + s) (pay9_apply pm w b x q)
    ((rowsum_apply (k0_pay10 pm w b x) _ _ _ _ q).trans
      (Finset.sum_congr rfl fun r _ => pay10_apply pm w b x r q))

/-- The running feature-weighted sum after the first tile. -/
theorem pay12_apply (pm ps : Vec Ideal S1x256 .f32) (w : Vec Ideal S256x256 .f32) (b : Vec Ideal S1x256 .f32)
    (x : Vec Ideal S4000x256 .f32) (q : Fin 256) :
    k0_pay12 (F := Ideal) pm ps w b x (ix2 0 q)
      = ps (ix2 0 q) * Ideal.exp (pm (ix2 0 q) - max (pm (ix2 0 q)) (tileMax (tileLogit x w b q)))
        + ∑ r : Fin 4000, tileCol x q r
            * Ideal.exp (tileLogit x w b q r - max (pm (ix2 0 q)) (tileMax (tileLogit x w b q))) := by
  unfold k0_pay12
  exact congrArg₂ (fun e s => ps (ix2 0 q) * e + s) (pay9_apply pm w b x q)
    ((rowsum_apply (mulf x (k0_pay10 pm w b x)) _ _ _ _ q).trans
      (Finset.sum_congr rfl fun r _ => congrArg (fun e => x (ix2 r q) * e) (pay10_apply pm w b x r q)))

/-! ## The second and third tiles, over whatever state and logits they are handed -/

/-- The largest logit of the second tile. -/
theorem pay14_apply (w : Vec Ideal S256x256 .f32) (b : Vec Ideal S1x256 .f32) (x : Vec Ideal S3000x256 .f32)
    (q : Fin 256) :
    k0_pay14 (F := Ideal) w b x (ix2 0 q) = tileMax (tileLogit x w b q) := by
  unfold k0_pay14
  exact (rowmax_apply (k0_pay13 w b x) _ _ _ _ q).trans
    (congrArg tileMax (funext fun r => pay13_apply w b x r q))

/-- The running maximum after the second tile. -/
theorem pay15_apply (v15 v35 : FVec Ideal S1x256 .f32) (q : Fin 256) :
    k0_pay15 (F := Ideal) v15 v35 (ix2 0 q) = max (v15 (ix2 0 q)) (v35 (ix2 0 q)) := by
  unfold k0_pay15
  exact maximumf_apply v15 v35 (ix2 0 q)

/-- The factor that rescales the sums, after the second tile. -/
theorem pay16_apply (v15 v35 : FVec Ideal S1x256 .f32) (q : Fin 256) :
    k0_pay16 (F := Ideal) v15 v35 (ix2 0 q)
      = Ideal.exp (v15 (ix2 0 q) - max (v15 (ix2 0 q)) (v35 (ix2 0 q))) := by
  unfold k0_pay16
  exact congrArg (fun m => Ideal.exp (v15 (ix2 0 q) - m)) (pay15_apply v15 v35 q)

/-- The second tile's exponentials, shifted by the new maximum. -/
theorem pay17_apply (v15 v35 : FVec Ideal S1x256 .f32) (v33 : FVec Ideal S3000x256 .f32) (r : Fin 3000) (q : Fin 256) :
    k0_pay17 (F := Ideal) v15 v33 v35 (ix2 r q)
      = Ideal.exp (v33 (ix2 r q) - max (v15 (ix2 0 q)) (v35 (ix2 0 q))) := by
  unfold k0_pay17
  exact congrArg (fun m => Ideal.exp (v33 (ix2 r q) - m))
    ((broadcastTo_1b_ab_apply (k0_pay15 v15 v35) _ r q).trans (pay15_apply v15 v35 q))

/-- The running maximum after the third tile. -/
theorem pay19_apply (w : Vec Ideal S256x256 .f32) (v8 v15 v35 : FVec Ideal S1x256 .f32) (x : Vec Ideal S3000x256 .f32)
    (q : Fin 256) :
    k0_pay19 (F := Ideal) w v8 v15 v35 x (ix2 0 q)
      = max (max (v15 (ix2 0 q)) (v35 (ix2 0 q))) (tileMax (tileLogit x w v8 q)) := by
  unfold k0_pay19
  refine (maximumf_apply (k0_pay15 v15 v35) _ (ix2 0 q)).trans ?_
  exact congrArg₂ max (pay15_apply v15 v35 q)
    ((rowmax_apply (k0_pay18 w v8 x) _ _ _ _ q).trans
      (congrArg tileMax (funext fun r => pay18_apply w v8 x r q)))

/-- The factor that rescales the sums, after the third tile. -/
theorem pay20_apply (w : Vec Ideal S256x256 .f32) (v8 v15 v35 : FVec Ideal S1x256 .f32) (x : Vec Ideal S3000x256 .f32)
    (q : Fin 256) :
    k0_pay20 (F := Ideal) w v8 v15 v35 x (ix2 0 q)
      = Ideal.exp (max (v15 (ix2 0 q)) (v35 (ix2 0 q))
          - max (max (v15 (ix2 0 q)) (v35 (ix2 0 q))) (tileMax (tileLogit x w v8 q))) := by
  unfold k0_pay20
  exact congrArg₂ (fun a m => Ideal.exp (a - m)) (pay15_apply v15 v35 q) (pay19_apply w v8 v15 v35 x q)

/-- The third tile's exponentials, shifted by the new maximum. -/
theorem pay21_apply (w : Vec Ideal S256x256 .f32) (v8 v15 v35 : FVec Ideal S1x256 .f32) (x : Vec Ideal S3000x256 .f32)
    (r : Fin 3000) (q : Fin 256) :
    k0_pay21 (F := Ideal) w v8 v15 v35 x (ix2 r q)
      = Ideal.exp (tileLogit x w v8 q r
          - max (max (v15 (ix2 0 q)) (v35 (ix2 0 q))) (tileMax (tileLogit x w v8 q))) := by
  unfold k0_pay21
  exact congrArg₂ (fun a m => Ideal.exp (a - m)) (pay18_apply w v8 x r q)
    ((broadcastTo_1b_ab_apply (k0_pay19 w v8 v15 v35 x) _ r q).trans (pay19_apply w v8 v15 v35 x q))

/-- The running sum of exponentials after the second and third tiles. -/
theorem pay22_apply (w : Vec Ideal S256x256 .f32) (v8 v15 v24 : FVec Ideal S1x256 .f32) (v33 : FVec Ideal S3000x256 .f32)
    (v35 : FVec Ideal S1x256 .f32) (x : Vec Ideal S3000x256 .f32) (q : Fin 256) :
    k0_pay22 (F := Ideal) w v8 v15 v24 v33 v35 x (ix2 0 q)
      = (v24 (ix2 0 q) * Ideal.exp (v15 (ix2 0 q) - max (v15 (ix2 0 q)) (v35 (ix2 0 q)))
          + ∑ r : Fin 3000, Ideal.exp (v33 (ix2 r q) - max (v15 (ix2 0 q)) (v35 (ix2 0 q))))
          * Ideal.exp (max (v15 (ix2 0 q)) (v35 (ix2 0 q))
              - max (max (v15 (ix2 0 q)) (v35 (ix2 0 q))) (tileMax (tileLogit x w v8 q)))
        + ∑ r : Fin 3000, Ideal.exp (tileLogit x w v8 q r
              - max (max (v15 (ix2 0 q)) (v35 (ix2 0 q))) (tileMax (tileLogit x w v8 q))) := by
  unfold k0_pay22
  exact congrArg₂ (fun a s => a + s)
    (congrArg₂ (fun a e => a * e)
      (congrArg₂ (fun e s => v24 (ix2 0 q) * e + s) (pay16_apply v15 v35 q)
        ((rowsum_apply (k0_pay17 v15 v33 v35) _ _ _ _ q).trans
          (Finset.sum_congr rfl fun r _ => pay17_apply v15 v35 v33 r q)))
      (pay20_apply w v8 v15 v35 x q))
    ((rowsum_apply (k0_pay21 w v8 v15 v35 x) _ _ _ _ q).trans
      (Finset.sum_congr rfl fun r _ => pay21_apply w v8 v15 v35 x r q))

/-- The running feature-weighted sum after the second and third tiles. -/
theorem pay23_apply (w : Vec Ideal S256x256 .f32) (v8 v15 v29 : FVec Ideal S1x256 .f32) (v30 : Vec Ideal S3000x256 .f32)
    (v33 : FVec Ideal S3000x256 .f32) (v35 : FVec Ideal S1x256 .f32) (x : Vec Ideal S3000x256 .f32) (q : Fin 256) :
    k0_pay23 (F := Ideal) w v8 v15 v29 v30 v33 v35 x (ix2 0 q)
      = (v29 (ix2 0 q) * Ideal.exp (v15 (ix2 0 q) - max (v15 (ix2 0 q)) (v35 (ix2 0 q)))
          + ∑ r : Fin 3000, tileCol v30 q r
              * Ideal.exp (v33 (ix2 r q) - max (v15 (ix2 0 q)) (v35 (ix2 0 q))))
          * Ideal.exp (max (v15 (ix2 0 q)) (v35 (ix2 0 q))
              - max (max (v15 (ix2 0 q)) (v35 (ix2 0 q))) (tileMax (tileLogit x w v8 q)))
        + ∑ r : Fin 3000, tileCol x q r * Ideal.exp (tileLogit x w v8 q r
              - max (max (v15 (ix2 0 q)) (v35 (ix2 0 q))) (tileMax (tileLogit x w v8 q))) := by
  unfold k0_pay23
  exact congrArg₂ (fun a s => a + s)
    (congrArg₂ (fun a e => a * e)
      (congrArg₂ (fun e s => v29 (ix2 0 q) * e + s) (pay16_apply v15 v35 q)
        ((rowsum_apply (mulf v30 (k0_pay17 v15 v33 v35)) _ _ _ _ q).trans
          (Finset.sum_congr rfl fun r _ =>
            congrArg (fun e => v30 (ix2 r q) * e) (pay17_apply v15 v35 v33 r q))))
      (pay20_apply w v8 v15 v35 x q))
    ((rowsum_apply (mulf x (k0_pay21 w v8 v15 v35 x)) _ _ _ _ q).trans
      (Finset.sum_congr rfl fun r _ =>
        congrArg (fun e => x (ix2 r q) * e) (pay21_apply w v8 v15 v35 x r q)))

/-! ## The last point's output -/

/-- The indices of a `[1, 1, 256]` array are its last coordinates. -/
def lastEquiv : S1x1x256.Idx ≃ Fin 256 where
  toFun i := i 2
  invFun c := ix3 0 0 c
  left_inv i := funext fun a => Fin.ext (by
    match a with
    | ⟨0, _⟩ => have h := (i 0).isLt; change (i 0).val < 1 at h; show 0 = (i 0).val; omega
    | ⟨1, _⟩ => have h := (i 1).isLt; change (i 1).val < 1 at h; show 0 = (i 1).val; omega
    | ⟨2, _⟩ => rfl)
  right_inv _ := rfl

/-- The quotients of two rows added up over the columns, as the last point forms them: the row of quotients, with two
    unit axes put in front, summed over every index, and that one number read back. -/
theorem total_apply (v : FVec Ideal S1x256 .f32) (hc : S1x256.ShapeCasts S1x1x256)
    (h : S1x1x256.Reduces [(1 : Fin 3), (2 : Fin 3)] S1) (hφ : FKind.Formats .f32)
    (hacc : (0x00000000#32 : BitVec 32) = FKind.add.neutral .f32 hφ) (j : S1.Idx) :
    multiReduction .add [(1 : Fin 3), (2 : Fin 3)] S1 (shapeCast S1x1x256 v hc) 0x00000000#32 h hφ hacc j
      = ∑ c : Fin 256, v (ix2 0 c) := by
  refine (Ideal.multiReduction_add_total (shapeCast S1x1x256 v hc) _ h (by decide) hφ hacc j).trans ?_
  refine (Equiv.sum_comp lastEquiv.symm _).symm.trans ?_
  refine Finset.sum_congr rfl fun c _ => ?_
  exact shapeCast_ab_1ab_apply v hc 0 0 c

/-- The last point's output over whatever two rows it is handed. -/
theorem pay2_apply (v66 v71 : FVec Ideal S1x256 .f32) (j : S1x1.Idx) :
    k0_pay2 (F := Ideal) v66 v71 j = ∑ c : Fin 256, Ideal.div (v71 (ix2 0 c)) (v66 (ix2 0 c)) := by
  unfold k0_pay2
  exact (total_apply (divf v71 v66) _ _ (.inl rfl) rfl _).trans
    (Finset.sum_congr rfl fun c _ => divf_apply v71 v66 (ix2 0 c))

/-! ## One grid point at a column -/

/-- The reset values of the scratch rows at column `q`. -/
theorem init_apply (q : Fin 256) :
    (k0_pay3 (F := Ideal) (ix2 0 q), k0_pay4 (F := Ideal) (ix2 0 q), k0_pay5 (F := Ideal) (ix2 0 q)) = ((⊥ : EReal), (0 : EReal), (0 : EReal)) := by
  unfold k0_pay3 k0_pay4 k0_pay5
  rw [shapeCast_self, shapeCast_self]
  show (Ideal.ofBits .f32 0xFF800000#32, Ideal.ofBits .f32 0x00000000#32, Ideal.ofBits .f32 0x00000000#32) = _
  rw [neg_inf_word, Ideal.ofBits_zero_f32]

theorem newM_apply (pm pz ps : Vec Ideal S1x256 .f32) (w : Vec Ideal S256x256 .f32) (b : Vec Ideal S1x256 .f32) (x0 : Vec Ideal S4000x256 .f32) (x1 x2 : Vec Ideal S3000x256 .f32) (q : Fin 256) :
    Terms.newM (F := Ideal) pm w b x0 x1 x2 (ix2 0 q) = (col3 pm pz ps w b x0 x1 x2 q).1 := by
  unfold Terms.newM k0_pay24
  rw [shapeCast_self, pay19_apply, pay8_apply, pay14_apply, pay6_eq]
  rfl

/-- The running sum of exponentials a point leaves. -/
theorem sumZ_apply (pm pz ps : Vec Ideal S1x256 .f32) (w : Vec Ideal S256x256 .f32) (b : Vec Ideal S1x256 .f32) (x0 : Vec Ideal S4000x256 .f32) (x1 x2 : Vec Ideal S3000x256 .f32) (q : Fin 256) :
    Terms.sumZ (F := Ideal) pm pz w b x0 x1 x2 (ix2 0 q) = (col3 pm pz ps w b x0 x1 x2 q).2.1 := by
  unfold Terms.sumZ
  rw [pay22_apply, pay8_apply, pay14_apply, pay11_apply, pay6_eq]
  simp only [pay13_apply]
  rfl

/-- The running feature-weighted sum a point leaves. -/
theorem sumS_apply (pm pz ps : Vec Ideal S1x256 .f32) (w : Vec Ideal S256x256 .f32) (b : Vec Ideal S1x256 .f32) (x0 : Vec Ideal S4000x256 .f32) (x1 x2 : Vec Ideal S3000x256 .f32) (q : Fin 256) :
    Terms.sumS (F := Ideal) pm ps w b x0 x1 x2 (ix2 0 q) = (col3 pm pz ps w b x0 x1 x2 q).2.2 := by
  unfold Terms.sumS
  rw [pay23_apply, pay8_apply, pay14_apply, pay12_apply, pay6_eq]
  simp only [pay13_apply]
  rfl

theorem newZ_apply (pm pz ps : Vec Ideal S1x256 .f32) (w : Vec Ideal S256x256 .f32) (b : Vec Ideal S1x256 .f32) (x0 : Vec Ideal S4000x256 .f32) (x1 x2 : Vec Ideal S3000x256 .f32) (q : Fin 256) :
    Terms.newZ (F := Ideal) pm pz w b x0 x1 x2 (ix2 0 q) = (col3 pm pz ps w b x0 x1 x2 q).2.1 := by
  unfold Terms.newZ k0_pay25
  rw [shapeCast_self]
  exact sumZ_apply pm pz ps w b x0 x1 x2 q

theorem newS_apply (pm pz ps : Vec Ideal S1x256 .f32) (w : Vec Ideal S256x256 .f32) (b : Vec Ideal S1x256 .f32) (x0 : Vec Ideal S4000x256 .f32) (x1 x2 : Vec Ideal S3000x256 .f32) (q : Fin 256) :
    Terms.newS (F := Ideal) pm ps w b x0 x1 x2 (ix2 0 q) = (col3 pm pz ps w b x0 x1 x2 q).2.2 := by
  unfold Terms.newS k0_pay1
  rw [shapeCast_self]
  exact sumS_apply pm pz ps w b x0 x1 x2 q

/-- The last point's output: the column quotients added up. -/
theorem outV_apply (pm pz ps : Vec Ideal S1x256 .f32) (w : Vec Ideal S256x256 .f32) (b : Vec Ideal S1x256 .f32) (x0 : Vec Ideal S4000x256 .f32) (x1 x2 : Vec Ideal S3000x256 .f32) (j : S1x1.Idx) :
    Terms.outV (F := Ideal) pm pz ps w b x0 x1 x2 j
      = ∑ q : Fin 256, Ideal.div (col3 pm pz ps w b x0 x1 x2 q).2.2 (col3 pm pz ps w b x0 x1 x2 q).2.1 := by
  unfold Terms.outV
  refine (pay2_apply _ _ j).trans ?_
  refine Finset.sum_congr rfl fun q _ => ?_
  exact congrArg₂ Ideal.div (sumS_apply pm pz ps w b x0 x1 x2 q) (sumZ_apply pm pz ps w b x0 x1 x2 q)

end Cert.KernelIdeal.Cols

end
-- ==== Proof.LibConcatPieces.lean ====
/-
  Arrays built from pieces, read at an entry; for any extents.

  * Rank-2 arrays laid side by side along the columns (any number of them; spelled out for five and for three): the
    joined array at row p and column  off + k , where  off  is the total width of the pieces before piece j and k is a
    column of piece j, is piece j at (p, k).
  * The same for arrays stacked along the rows: at row  off + k  and column n it is piece j at (k, n).
  * One leading position s of a rank-3 array [D, K, N], kept as [1, K, N] and then viewed as [K, N], reads at (k, n) the
    array at (s, k, n).
  * One row i of a rank-2 array [R, N], kept as [1, N] and then viewed as [N], reads at n the array at (i, n); and a
    vector [N] viewed as the one-row array [1, N] reads at (0, n) the vector at n.
-/
import Idealize.ShloMosaic.Lib.Pipeline.Value
import Idealize.ShloMosaic.Lib.ValueIdx

noncomputable section

namespace Cert.LibConcatPieces

open Idealize.ShloMosaic Idealize.ShloMosaic.ValueIdx

variable {α : Type}

/-! ## Side by side along the columns -/

/-- Any number of rank-2 arrays side by side along the columns, read inside piece `j` (which starts at column `pre`,
    the total width of the pieces before it). -/
theorem cols_piece {R T : ℕ} (xs : List ((s : Shape) × (s.Idx → α)))
    (h : Shape.Concatenates (xs.map (·.1)) (⟨2, ![R, T]⟩ : Shape) (1 : Fin 2)) (p : Fin R) (c : Fin T)
    (j : ℕ) (hj : j < xs.length) {A : ℕ} (x : (⟨2, ![R, A]⟩ : Shape).Idx → α) (hx : xs[j] = ⟨(⟨2, ![R, A]⟩ : Shape), x⟩)
    (pre : ℕ)
    (hpre : (((xs.take j).map (·.1)).map fun s : Shape =>
      if h : s.rank = (⟨2, ![R, T]⟩ : Shape).rank then s.size ((1 : Fin 2).cast h.symm) else 0).sum = pre)
    (k : Fin A) (hc : pre + k.val = c.val) :
    concatenate (⟨2, ![R, T]⟩ : Shape) (1 : Fin 2) xs h (ix2 p c) = x (ix2 p k) :=
  concatenate_apply_piece (t := (⟨2, ![R, T]⟩ : Shape)) (1 : Fin 2) xs h (ix2 p c) j hj (⟨2, ![R, A]⟩ : Shape) x hx rfl pre hpre (ix2 p k)
    (fun b hb => by
      match b, hb with
      | ⟨0, _⟩, _ => rfl
      | ⟨1, _⟩, hb => exact absurd rfl hb)
    hc

/-- Five arrays side by side along the columns, read inside the first: the first array, its column counted from where it starts. -/
theorem cols5_0 {R A0 A1 A2 A3 A4 T : ℕ} (x0 : (⟨2, ![R, A0]⟩ : Shape).Idx → α) (x1 : (⟨2, ![R, A1]⟩ : Shape).Idx → α) (x2 : (⟨2, ![R, A2]⟩ : Shape).Idx → α) (x3 : (⟨2, ![R, A3]⟩ : Shape).Idx → α) (x4 : (⟨2, ![R, A4]⟩ : Shape).Idx → α)
    (h : Shape.Concatenates [(⟨2, ![R, A0]⟩ : Shape), (⟨2, ![R, A1]⟩ : Shape), (⟨2, ![R, A2]⟩ : Shape), (⟨2, ![R, A3]⟩ : Shape), (⟨2, ![R, A4]⟩ : Shape)] (⟨2, ![R, T]⟩ : Shape) (1 : Fin 2))
    (p : Fin R) (c : Fin T) (k : Fin A0) (hc : k.val = c.val) :
    concatenate (⟨2, ![R, T]⟩ : Shape) (1 : Fin 2) [⟨(⟨2, ![R, A0]⟩ : Shape), x0⟩, ⟨(⟨2, ![R, A1]⟩ : Shape), x1⟩, ⟨(⟨2, ![R, A2]⟩ : Shape), x2⟩, ⟨(⟨2, ![R, A3]⟩ : Shape), x3⟩, ⟨(⟨2, ![R, A4]⟩ : Shape), x4⟩] h (ix2 p c) = x0 (ix2 p k) :=
  cols_piece [⟨(⟨2, ![R, A0]⟩ : Shape), x0⟩, ⟨(⟨2, ![R, A1]⟩ : Shape), x1⟩, ⟨(⟨2, ![R, A2]⟩ : Shape), x2⟩, ⟨(⟨2, ![R, A3]⟩ : Shape), x3⟩, ⟨(⟨2, ![R, A4]⟩ : Shape), x4⟩] h p c 0 (show 0 < 5 by omega) x0 rfl (0) rfl k (by omega)

/-- Five arrays side by side along the columns, read inside the second: the second array, its column counted from where it starts. -/
theorem cols5_1 {R A0 A1 A2 A3 A4 T : ℕ} (x0 : (⟨2, ![R, A0]⟩ : Shape).Idx → α) (x1 : (⟨2, ![R, A1]⟩ : Shape).Idx → α) (x2 : (⟨2, ![R, A2]⟩ : Shape).Idx → α) (x3 : (⟨2, ![R, A3]⟩ : Shape).Idx → α) (x4 : (⟨2, ![R, A4]⟩ : Shape).Idx → α)
    (h : Shape.Concatenates [(⟨2, ![R, A0]⟩ : Shape), (⟨2, ![R, A1]⟩ : Shape), (⟨2, ![R, A2]⟩ : Shape), (⟨2, ![R, A3]⟩ : Shape), (⟨2, ![R, A4]⟩ : Shape)] (⟨2, ![R, T]⟩ : Shape) (1 : Fin 2))
    (p : Fin R) (c : Fin T) (k : Fin A1) (hc : A0 + k.val = c.val) :
    concatenate (⟨2, ![R, T]⟩ : Shape) (1 : Fin 2) [⟨(⟨2, ![R, A0]⟩ : Shape), x0⟩, ⟨(⟨2, ![R, A1]⟩ : Shape), x1⟩, ⟨(⟨2, ![R, A2]⟩ : Shape), x2⟩, ⟨(⟨2, ![R, A3]⟩ : Shape), x3⟩, ⟨(⟨2, ![R, A4]⟩ : Shape), x4⟩] h (ix2 p c) = x1 (ix2 p k) :=
  cols_piece [⟨(⟨2, ![R, A0]⟩ : Shape), x0⟩, ⟨(⟨2, ![R, A1]⟩ : Shape), x1⟩, ⟨(⟨2, ![R, A2]⟩ : Shape), x2⟩, ⟨(⟨2, ![R, A3]⟩ : Shape), x3⟩, ⟨(⟨2, ![R, A4]⟩ : Shape), x4⟩] h p c 1 (show 1 < 5 by omega) x1 rfl (A0) (by show A0 + (0) = A0; omega) k (by omega)

/-- Five arrays side by side along the columns, read inside the third: the third array, its column counted from where it starts. -/
theorem cols5_2 {R A0 A1 A2 A3 A4 T : ℕ} (x0 : (⟨2, ![R, A0]⟩ : Shape).Idx → α) (x1 : (⟨2, ![R, A1]⟩ : Shape).Idx → α) (x2 : (⟨2, ![R, A2]⟩ : Shape).Idx → α) (x3 : (⟨2, ![R, A3]⟩ : Shape).Idx → α) (x4 : (⟨2, ![R, A4]⟩ : Shape).Idx → α)
    (h : Shape.Concatenates [(⟨2, ![R, A0]⟩ : Shape), (⟨2, ![R, A1]⟩ : Shape), (⟨2, ![R, A2]⟩ : Shape), (⟨2, ![R, A3]⟩ : Shape), (⟨2, ![R, A4]⟩ : Shape)] (⟨2, ![R, T]⟩ : Shape) (1 : Fin 2))
    (p : Fin R) (c : Fin T) (k : Fin A2) (hc : A0 + A1 + k.val = c.val) :
    concatenate (⟨2, ![R, T]⟩ : Shape) (1 : Fin 2) [⟨(⟨2, ![R, A0]⟩ : Shape), x0⟩, ⟨(⟨2, ![R, A1]⟩ : Shape), x1⟩, ⟨(⟨2, ![R, A2]⟩ : Shape), x2⟩, ⟨(⟨2, ![R, A3]⟩ : Shape), x3⟩, ⟨(⟨2, ![R, A4]⟩ : Shape), x4⟩] h (ix2 p c) = x2 (ix2 p k) :=
  cols_piece [⟨(⟨2, ![R, A0]⟩ : Shape), x0⟩, ⟨(⟨2, ![R, A1]⟩ : Shape), x1⟩, ⟨(⟨2, ![R, A2]⟩ : Shape), x2⟩, ⟨(⟨2, ![R, A3]⟩ : Shape), x3⟩, ⟨(⟨2, ![R, A4]⟩ : Shape), x4⟩] h p c 2 (show 2 < 5 by omega) x2 rfl (A0 + A1) (by show A0 + (A1 + (0)) = A0 + A1; omega) k (by omega)

/-- Five arrays side by side along the columns, read inside the fourth: the fourth array, its column counted from where it starts. -/
theorem cols5_3 {R A0 A1 A2 A3 A4 T : ℕ} (x0 : (⟨2, ![R, A0]⟩ : Shape).Idx → α) (x1 : (⟨2, ![R, A1]⟩ : Shape).Idx → α) (x2 : (⟨2, ![R, A2]⟩ : Shape).Idx → α) (x3 : (⟨2, ![R, A3]⟩ : Shape).Idx → α) (x4 : (⟨2, ![R, A4]⟩ : Shape).Idx → α)
    (h : Shape.Concatenates [(⟨2, ![R, A0]⟩ : Shape), (⟨2, ![R, A1]⟩ : Shape), (⟨2, ![R, A2]⟩ : Shape), (⟨2, ![R, A3]⟩ : Shape), (⟨2, ![R, A4]⟩ : Shape)] (⟨2, ![R, T]⟩ : Shape) (1 : Fin 2))
    (p : Fin R) (c : Fin T) (k : Fin A3) (hc : A0 + A1 + A2 + k.val = c.val) :
    concatenate (⟨2, ![R, T]⟩ : Shape) (1 : Fin 2) [⟨(⟨2, ![R, A0]⟩ : Shape), x0⟩, ⟨(⟨2, ![R, A1]⟩ : Shape), x1⟩, ⟨(⟨2, ![R, A2]⟩ : Shape), x2⟩, ⟨(⟨2, ![R, A3]⟩ : Shape), x3⟩, ⟨(⟨2, ![R, A4]⟩ : Shape), x4⟩] h (ix2 p c) = x3 (ix2 p k) :=
  cols_piece [⟨(⟨2, ![R, A0]⟩ : Shape), x0⟩, ⟨(⟨2, ![R, A1]⟩ : Shape), x1⟩, ⟨(⟨2, ![R, A2]⟩ : Shape), x2⟩, ⟨(⟨2, ![R, A3]⟩ : Shape), x3⟩, ⟨(⟨2, ![R, A4]⟩ : Shape), x4⟩] h p c 3 (show 3 < 5 by omega) x3 rfl (A0 + A1 + A2) (by show A0 + (A1 + (A2 + (0))) = A0 + A1 + A2; omega) k (by omega)

/-- Five arrays side by side along the columns, read inside the fifth: the fifth array, its column counted from where it starts. -/
theorem cols5_4 {R A0 A1 A2 A3 A4 T : ℕ} (x0 : (⟨2, ![R, A0]⟩ : Shape).Idx → α) (x1 : (⟨2, ![R, A1]⟩ : Shape).Idx → α) (x2 : (⟨2, ![R, A2]⟩ : Shape).Idx → α) (x3 : (⟨2, ![R, A3]⟩ : Shape).Idx → α) (x4 : (⟨2, ![R, A4]⟩ : Shape).Idx → α)
    (h : Shape.Concatenates [(⟨2, ![R, A0]⟩ : Shape), (⟨2, ![R, A1]⟩ : Shape), (⟨2, ![R, A2]⟩ : Shape), (⟨2, ![R, A3]⟩ : Shape), (⟨2, ![R, A4]⟩ : Shape)] (⟨2, ![R, T]⟩ : Shape) (1 : Fin 2))
    (p : Fin R) (c : Fin T) (k : Fin A4) (hc : A0 + A1 + A2 + A3 + k.val = c.val) :
    concatenate (⟨2, ![R, T]⟩ : Shape) (1 : Fin 2) [⟨(⟨2, ![R, A0]⟩ : Shape), x0⟩, ⟨(⟨2, ![R, A1]⟩ : Shape), x1⟩, ⟨(⟨2, ![R, A2]⟩ : Shape), x2⟩, ⟨(⟨2, ![R, A3]⟩ : Shape), x3⟩, ⟨(⟨2, ![R, A4]⟩ : Shape), x4⟩] h (ix2 p c) = x4 (ix2 p k) :=
  cols_piece [⟨(⟨2, ![R, A0]⟩ : Shape), x0⟩, ⟨(⟨2, ![R, A1]⟩ : Shape), x1⟩, ⟨(⟨2, ![R, A2]⟩ : Shape), x2⟩, ⟨(⟨2, ![R, A3]⟩ : Shape), x3⟩, ⟨(⟨2, ![R, A4]⟩ : Shape), x4⟩] h p c 4 (show 4 < 5 by omega) x4 rfl (A0 + A1 + A2 + A3) (by show A0 + (A1 + (A2 + (A3 + (0)))) = A0 + A1 + A2 + A3; omega) k (by omega)

/-- Three arrays side by side along the columns, read inside the first: the first array, its column counted from where it starts. -/
theorem cols3_0 {R A0 A1 A2 T : ℕ} (x0 : (⟨2, ![R, A0]⟩ : Shape).Idx → α) (x1 : (⟨2, ![R, A1]⟩ : Shape).Idx → α) (x2 : (⟨2, ![R, A2]⟩ : Shape).Idx → α)
    (h : Shape.Concatenates [(⟨2, ![R, A0]⟩ : Shape), (⟨2, ![R, A1]⟩ : Shape), (⟨2, ![R, A2]⟩ : Shape)] (⟨2, ![R, T]⟩ : Shape) (1 : Fin 2))
    (p : Fin R) (c : Fin T) (k : Fin A0) (hc : k.val = c.val) :
    concatenate (⟨2, ![R, T]⟩ : Shape) (1 : Fin 2) [⟨(⟨2, ![R, A0]⟩ : Shape), x0⟩, ⟨(⟨2, ![R, A1]⟩ : Shape), x1⟩, ⟨(⟨2, ![R, A2]⟩ : Shape), x2⟩] h (ix2 p c) = x0 (ix2 p k) :=
  cols_piece [⟨(⟨2, ![R, A0]⟩ : Shape), x0⟩, ⟨(⟨2, ![R, A1]⟩ : Shape), x1⟩, ⟨(⟨2, ![R, A2]⟩ : Shape), x2⟩] h p c 0 (show 0 < 3 by omega) x0 rfl (0) rfl k (by omega)

/-- Three arrays side by side along the columns, read inside the second: the second array, its column counted from where it starts. -/
theorem cols3_1 {R A0 A1 A2 T : ℕ} (x0 : (⟨2, ![R, A0]⟩ : Shape).Idx → α) (x1 : (⟨2, ![R, A1]⟩ : Shape).Idx → α) (x2 : (⟨2, ![R, A2]⟩ : Shape).Idx → α)
    (h : Shape.Concatenates [(⟨2, ![R, A0]⟩ : Shape), (⟨2, ![R, A1]⟩ : Shape), (⟨2, ![R, A2]⟩ : Shape)] (⟨2, ![R, T]⟩ : Shape) (1 : Fin 2))
    (p : Fin R) (c : Fin T) (k : Fin A1) (hc : A0 + k.val = c.val) :
    concatenate (⟨2, ![R, T]⟩ : Shape) (1 : Fin 2) [⟨(⟨2, ![R, A0]⟩ : Shape), x0⟩, ⟨(⟨2, ![R, A1]⟩ : Shape), x1⟩, ⟨(⟨2, ![R, A2]⟩ : Shape), x2⟩] h (ix2 p c) = x1 (ix2 p k) :=
  cols_piece [⟨(⟨2, ![R, A0]⟩ : Shape), x0⟩, ⟨(⟨2, ![R, A1]⟩ : Shape), x1⟩, ⟨(⟨2, ![R, A2]⟩ : Shape), x2⟩] h p c 1 (show 1 < 3 by omega) x1 rfl (A0) (by show A0 + (0) = A0; omega) k (by omega)

/-- Three arrays side by side along the columns, read inside the third: the third array, its column counted from where it starts. -/
theorem cols3_2 {R A0 A1 A2 T : ℕ} (x0 : (⟨2, ![R, A0]⟩ : Shape).Idx → α) (x1 : (⟨2, ![R, A1]⟩ : Shape).Idx → α) (x2 : (⟨2, ![R, A2]⟩ : Shape).Idx → α)
    (h : Shape.Concatenates [(⟨2, ![R, A0]⟩ : Shape), (⟨2, ![R, A1]⟩ : Shape), (⟨2, ![R, A2]⟩ : Shape)] (⟨2, ![R, T]⟩ : Shape) (1 : Fin 2))
    (p : Fin R) (c : Fin T) (k : Fin A2) (hc : A0 + A1 + k.val = c.val) :
    concatenate (⟨2, ![R, T]⟩ : Shape) (1 : Fin 2) [⟨(⟨2, ![R, A0]⟩ : Shape), x0⟩, ⟨(⟨2, ![R, A1]⟩ : Shape), x1⟩, ⟨(⟨2, ![R, A2]⟩ : Shape), x2⟩] h (ix2 p c) = x2 (ix2 p k) :=
  cols_piece [⟨(⟨2, ![R, A0]⟩ : Shape), x0⟩, ⟨(⟨2, ![R, A1]⟩ : Shape), x1⟩, ⟨(⟨2, ![R, A2]⟩ : Shape), x2⟩] h p c 2 (show 2 < 3 by omega) x2 rfl (A0 + A1) (by show A0 + (A1 + (0)) = A0 + A1; omega) k (by omega)

/-! ## Stacked along the rows -/

/-- Any number of rank-2 arrays stacked along the rows, read inside piece `j` (which starts at row `pre`, the total
    height of the pieces before it). -/
theorem rows_piece {T N : ℕ} (xs : List ((s : Shape) × (s.Idx → α)))
    (h : Shape.Concatenates (xs.map (·.1)) (⟨2, ![T, N]⟩ : Shape) (0 : Fin 2)) (c : Fin T) (n : Fin N)
    (j : ℕ) (hj : j < xs.length) {A : ℕ} (x : (⟨2, ![A, N]⟩ : Shape).Idx → α) (hx : xs[j] = ⟨(⟨2, ![A, N]⟩ : Shape), x⟩)
    (pre : ℕ)
    (hpre : (((xs.take j).map (·.1)).map fun s : Shape =>
      if h : s.rank = (⟨2, ![T, N]⟩ : Shape).rank then s.size ((0 : Fin 2).cast h.symm) else 0).sum = pre)
    (k : Fin A) (hc : pre + k.val = c.val) :
    concatenate (⟨2, ![T, N]⟩ : Shape) (0 : Fin 2) xs h (ix2 c n) = x (ix2 k n) :=
  concatenate_apply_piece (t := (⟨2, ![T, N]⟩ : Shape)) (0 : Fin 2) xs h (ix2 c n) j hj (⟨2, ![A, N]⟩ : Shape) x hx rfl pre hpre (ix2 k n)
    (fun b hb => by
      match b, hb with
      | ⟨0, _⟩, hb => exact absurd rfl hb
      | ⟨1, _⟩, _ => rfl)
    hc

/-- Five arrays stacked along the rows, read inside the first: the first array, its row counted from where it starts. -/
theorem rows5_0 {N A0 A1 A2 A3 A4 T : ℕ} (x0 : (⟨2, ![A0, N]⟩ : Shape).Idx → α) (x1 : (⟨2, ![A1, N]⟩ : Shape).Idx → α) (x2 : (⟨2, ![A2, N]⟩ : Shape).Idx → α) (x3 : (⟨2, ![A3, N]⟩ : Shape).Idx → α) (x4 : (⟨2, ![A4, N]⟩ : Shape).Idx → α)
    (h : Shape.Concatenates [(⟨2, ![A0, N]⟩ : Shape), (⟨2, ![A1, N]⟩ : Shape), (⟨2, ![A2, N]⟩ : Shape), (⟨2, ![A3, N]⟩ : Shape), (⟨2, ![A4, N]⟩ : Shape)] (⟨2, ![T, N]⟩ : Shape) (0 : Fin 2))
    (c : Fin T) (k : Fin A0) (n : Fin N) (hc : k.val = c.val) :
    concatenate (⟨2, ![T, N]⟩ : Shape) (0 : Fin 2) [⟨(⟨2, ![A0, N]⟩ : Shape), x0⟩, ⟨(⟨2, ![A1, N]⟩ : Shape), x1⟩, ⟨(⟨2, ![A2, N]⟩ : Shape), x2⟩, ⟨(⟨2, ![A3, N]⟩ : Shape), x3⟩, ⟨(⟨2, ![A4, N]⟩ : Shape), x4⟩] h (ix2 c n) = x0 (ix2 k n) :=
  rows_piece [⟨(⟨2, ![A0, N]⟩ : Shape), x0⟩, ⟨(⟨2, ![A1, N]⟩ : Shape), x1⟩, ⟨(⟨2, ![A2, N]⟩ : Shape), x2⟩, ⟨(⟨2, ![A3, N]⟩ : Shape), x3⟩, ⟨(⟨2, ![A4, N]⟩ : Shape), x4⟩] h c n 0 (show 0 < 5 by omega) x0 rfl (0) rfl k (by omega)

/-- Five arrays stacked along the rows, read inside the second: the second array, its row counted from where it starts. -/
theorem rows5_1 {N A0 A1 A2 A3 A4 T : ℕ} (x0 : (⟨2, ![A0, N]⟩ : Shape).Idx → α) (x1 : (⟨2, ![A1, N]⟩ : Shape).Idx → α) (x2 : (⟨2, ![A2, N]⟩ : Shape).Idx → α) (x3 : (⟨2, ![A3, N]⟩ : Shape).Idx → α) (x4 : (⟨2, ![A4, N]⟩ : Shape).Idx → α)
    (h : Shape.Concatenates [(⟨2, ![A0, N]⟩ : Shape), (⟨2, ![A1, N]⟩ : Shape), (⟨2, ![A2, N]⟩ : Shape), (⟨2, ![A3, N]⟩ : Shape), (⟨2, ![A4, N]⟩ : Shape)] (⟨2, ![T, N]⟩ : Shape) (0 : Fin 2))
    (c : Fin T) (k : Fin A1) (n : Fin N) (hc : A0 + k.val = c.val) :
    concatenate (⟨2, ![T, N]⟩ : Shape) (0 : Fin 2) [⟨(⟨2, ![A0, N]⟩ : Shape), x0⟩, ⟨(⟨2, ![A1, N]⟩ : Shape), x1⟩, ⟨(⟨2, ![A2, N]⟩ : Shape), x2⟩, ⟨(⟨2, ![A3, N]⟩ : Shape), x3⟩, ⟨(⟨2, ![A4, N]⟩ : Shape), x4⟩] h (ix2 c n) = x1 (ix2 k n) :=
  rows_piece [⟨(⟨2, ![A0, N]⟩ : Shape), x0⟩, ⟨(⟨2, ![A1, N]⟩ : Shape), x1⟩, ⟨(⟨2, ![A2, N]⟩ : Shape), x2⟩, ⟨(⟨2, ![A3, N]⟩ : Shape), x3⟩, ⟨(⟨2, ![A4, N]⟩ : Shape), x4⟩] h c n 1 (show 1 < 5 by omega) x1 rfl (A0) (by show A0 + (0) = A0; omega) k (by omega)

/-- Five arrays stacked along the rows, read inside the third: the third array, its row counted from where it starts. -/
theorem rows5_2 {N A0 A1 A2 A3 A4 T : ℕ} (x0 : (⟨2, ![A0, N]⟩ : Shape).Idx → α) (x1 : (⟨2, ![A1, N]⟩ : Shape).Idx → α) (x2 : (⟨2, ![A2, N]⟩ : Shape).Idx → α) (x3 : (⟨2, ![A3, N]⟩ : Shape).Idx → α) (x4 : (⟨2, ![A4, N]⟩ : Shape).Idx → α)
    (h : Shape.Concatenates [(⟨2, ![A0, N]⟩ : Shape), (⟨2, ![A1, N]⟩ : Shape), (⟨2, ![A2, N]⟩ : Shape), (⟨2, ![A3, N]⟩ : Shape), (⟨2, ![A4, N]⟩ : Shape)] (⟨2, ![T, N]⟩ : Shape) (0 : Fin 2))
    (c : Fin T) (k : Fin A2) (n : Fin N) (hc : A0 + A1 + k.val = c.val) :
    concatenate (⟨2, ![T, N]⟩ : Shape) (0 : Fin 2) [⟨(⟨2, ![A0, N]⟩ : Shape), x0⟩, ⟨(⟨2, ![A1, N]⟩ : Shape), x1⟩, ⟨(⟨2, ![A2, N]⟩ : Shape), x2⟩, ⟨(⟨2, ![A3, N]⟩ : Shape), x3⟩, ⟨(⟨2, ![A4, N]⟩ : Shape), x4⟩] h (ix2 c n) = x2 (ix2 k n) :=
  rows_piece [⟨(⟨2, ![A0, N]⟩ : Shape), x0⟩, ⟨(⟨2, ![A1, N]⟩ : Shape), x1⟩, ⟨(⟨2, ![A2, N]⟩ : Shape), x2⟩, ⟨(⟨2, ![A3, N]⟩ : Shape), x3⟩, ⟨(⟨2, ![A4, N]⟩ : Shape), x4⟩] h c n 2 (show 2 < 5 by omega) x2 rfl (A0 + A1) (by show A0 + (A1 + (0)) = A0 + A1; omega) k (by omega)

/-- Five arrays stacked along the rows, read inside the fourth: the fourth array, its row counted from where it starts. -/
theorem rows5_3 {N A0 A1 A2 A3 A4 T : ℕ} (x0 : (⟨2, ![A0, N]⟩ : Shape).Idx → α) (x1 : (⟨2, ![A1, N]⟩ : Shape).Idx → α) (x2 : (⟨2, ![A2, N]⟩ : Shape).Idx → α) (x3 : (⟨2, ![A3, N]⟩ : Shape).Idx → α) (x4 : (⟨2, ![A4, N]⟩ : Shape).Idx → α)
    (h : Shape.Concatenates [(⟨2, ![A0, N]⟩ : Shape), (⟨2, ![A1, N]⟩ : Shape), (⟨2, ![A2, N]⟩ : Shape), (⟨2, ![A3, N]⟩ : Shape), (⟨2, ![A4, N]⟩ : Shape)] (⟨2, ![T, N]⟩ : Shape) (0 : Fin 2))
    (c : Fin T) (k : Fin A3) (n : Fin N) (hc : A0 + A1 + A2 + k.val = c.val) :
    concatenate (⟨2, ![T, N]⟩ : Shape) (0 : Fin 2) [⟨(⟨2, ![A0, N]⟩ : Shape), x0⟩, ⟨(⟨2, ![A1, N]⟩ : Shape), x1⟩, ⟨(⟨2, ![A2, N]⟩ : Shape), x2⟩, ⟨(⟨2, ![A3, N]⟩ : Shape), x3⟩, ⟨(⟨2, ![A4, N]⟩ : Shape), x4⟩] h (ix2 c n) = x3 (ix2 k n) :=
  rows_piece [⟨(⟨2, ![A0, N]⟩ : Shape), x0⟩, ⟨(⟨2, ![A1, N]⟩ : Shape), x1⟩, ⟨(⟨2, ![A2, N]⟩ : Shape), x2⟩, ⟨(⟨2, ![A3, N]⟩ : Shape), x3⟩, ⟨(⟨2, ![A4, N]⟩ : Shape), x4⟩] h c n 3 (show 3 < 5 by omega) x3 rfl (A0 + A1 + A2) (by show A0 + (A1 + (A2 + (0))) = A0 + A1 + A2; omega) k (by omega)

/-- Five arrays stacked along the rows, read inside the fifth: the fifth array, its row counted from where it starts. -/
theorem rows5_4 {N A0 A1 A2 A3 A4 T : ℕ} (x0 : (⟨2, ![A0, N]⟩ : Shape).Idx → α) (x1 : (⟨2, ![A1, N]⟩ : Shape).Idx → α) (x2 : (⟨2, ![A2, N]⟩ : Shape).Idx → α) (x3 : (⟨2, ![A3, N]⟩ : Shape).Idx → α) (x4 : (⟨2, ![A4, N]⟩ : Shape).Idx → α)
    (h : Shape.Concatenates [(⟨2, ![A0, N]⟩ : Shape), (⟨2, ![A1, N]⟩ : Shape), (⟨2, ![A2, N]⟩ : Shape), (⟨2, ![A3, N]⟩ : Shape), (⟨2, ![A4, N]⟩ : Shape)] (⟨2, ![T, N]⟩ : Shape) (0 : Fin 2))
    (c : Fin T) (k : Fin A4) (n : Fin N) (hc : A0 + A1 + A2 + A3 + k.val = c.val) :
    concatenate (⟨2, ![T, N]⟩ : Shape) (0 : Fin 2) [⟨(⟨2, ![A0, N]⟩ : Shape), x0⟩, ⟨(⟨2, ![A1, N]⟩ : Shape), x1⟩, ⟨(⟨2, ![A2, N]⟩ : Shape), x2⟩, ⟨(⟨2, ![A3, N]⟩ : Shape), x3⟩, ⟨(⟨2, ![A4, N]⟩ : Shape), x4⟩] h (ix2 c n) = x4 (ix2 k n) :=
  rows_piece [⟨(⟨2, ![A0, N]⟩ : Shape), x0⟩, ⟨(⟨2, ![A1, N]⟩ : Shape), x1⟩, ⟨(⟨2, ![A2, N]⟩ : Shape), x2⟩, ⟨(⟨2, ![A3, N]⟩ : Shape), x3⟩, ⟨(⟨2, ![A4, N]⟩ : Shape), x4⟩] h c n 4 (show 4 < 5 by omega) x4 rfl (A0 + A1 + A2 + A3) (by show A0 + (A1 + (A2 + (A3 + (0)))) = A0 + A1 + A2 + A3; omega) k (by omega)

/-- Three arrays stacked along the rows, read inside the first: the first array, its row counted from where it starts. -/
theorem rows3_0 {N A0 A1 A2 T : ℕ} (x0 : (⟨2, ![A0, N]⟩ : Shape).Idx → α) (x1 : (⟨2, ![A1, N]⟩ : Shape).Idx → α) (x2 : (⟨2, ![A2, N]⟩ : Shape).Idx → α)
    (h : Shape.Concatenates [(⟨2, ![A0, N]⟩ : Shape), (⟨2, ![A1, N]⟩ : Shape), (⟨2, ![A2, N]⟩ : Shape)] (⟨2, ![T, N]⟩ : Shape) (0 : Fin 2))
    (c : Fin T) (k : Fin A0) (n : Fin N) (hc : k.val = c.val) :
    concatenate (⟨2, ![T, N]⟩ : Shape) (0 : Fin 2) [⟨(⟨2, ![A0, N]⟩ : Shape), x0⟩, ⟨(⟨2, ![A1, N]⟩ : Shape), x1⟩, ⟨(⟨2, ![A2, N]⟩ : Shape), x2⟩] h (ix2 c n) = x0 (ix2 k n) :=
  rows_piece [⟨(⟨2, ![A0, N]⟩ : Shape), x0⟩, ⟨(⟨2, ![A1, N]⟩ : Shape), x1⟩, ⟨(⟨2, ![A2, N]⟩ : Shape), x2⟩] h c n 0 (show 0 < 3 by omega) x0 rfl (0) rfl k (by omega)

/-- Three arrays stacked along the rows, read inside the second: the second array, its row counted from where it starts. -/
theorem rows3_1 {N A0 A1 A2 T : ℕ} (x0 : (⟨2, ![A0, N]⟩ : Shape).Idx → α) (x1 : (⟨2, ![A1, N]⟩ : Shape).Idx → α) (x2 : (⟨2, ![A2, N]⟩ : Shape).Idx → α)
    (h : Shape.Concatenates [(⟨2, ![A0, N]⟩ : Shape), (⟨2, ![A1, N]⟩ : Shape), (⟨2, ![A2, N]⟩ : Shape)] (⟨2, ![T, N]⟩ : Shape) (0 : Fin 2))
    (c : Fin T) (k : Fin A1) (n : Fin N) (hc : A0 + k.val = c.val) :
    concatenate (⟨2, ![T, N]⟩ : Shape) (0 : Fin 2) [⟨(⟨2, ![A0, N]⟩ : Shape), x0⟩, ⟨(⟨2, ![A1, N]⟩ : Shape), x1⟩, ⟨(⟨2, ![A2, N]⟩ : Shape), x2⟩] h (ix2 c n) = x1 (ix2 k n) :=
  rows_piece [⟨(⟨2, ![A0, N]⟩ : Shape), x0⟩, ⟨(⟨2, ![A1, N]⟩ : Shape), x1⟩, ⟨(⟨2, ![A2, N]⟩ : Shape), x2⟩] h c n 1 (show 1 < 3 by omega) x1 rfl (A0) (by show A0 + (0) = A0; omega) k (by omega)

/-- Three arrays stacked along the rows, read inside the third: the third array, its row counted from where it starts. -/
theorem rows3_2 {N A0 A1 A2 T : ℕ} (x0 : (⟨2, ![A0, N]⟩ : Shape).Idx → α) (x1 : (⟨2, ![A1, N]⟩ : Shape).Idx → α) (x2 : (⟨2, ![A2, N]⟩ : Shape).Idx → α)
    (h : Shape.Concatenates [(⟨2, ![A0, N]⟩ : Shape), (⟨2, ![A1, N]⟩ : Shape), (⟨2, ![A2, N]⟩ : Shape)] (⟨2, ![T, N]⟩ : Shape) (0 : Fin 2))
    (c : Fin T) (k : Fin A2) (n : Fin N) (hc : A0 + A1 + k.val = c.val) :
    concatenate (⟨2, ![T, N]⟩ : Shape) (0 : Fin 2) [⟨(⟨2, ![A0, N]⟩ : Shape), x0⟩, ⟨(⟨2, ![A1, N]⟩ : Shape), x1⟩, ⟨(⟨2, ![A2, N]⟩ : Shape), x2⟩] h (ix2 c n) = x2 (ix2 k n) :=
  rows_piece [⟨(⟨2, ![A0, N]⟩ : Shape), x0⟩, ⟨(⟨2, ![A1, N]⟩ : Shape), x1⟩, ⟨(⟨2, ![A2, N]⟩ : Shape), x2⟩] h c n 2 (show 2 < 3 by omega) x2 rfl (A0 + A1) (by show A0 + (A1 + (0)) = A0 + A1; omega) k (by omega)

/-! ## One leading position of a rank-3 array, one row of a rank-2 array -/

/-- Position `s` of the leading axis of a rank-3 array, kept as a block with leading extent 1. -/
theorem slab_apply {D K N : ℕ} (s : ℕ) (x : (⟨3, ![D, K, N]⟩ : Shape).Idx → α)
    (h : (⟨3, ![D, K, N]⟩ : Shape).Slices ![s, 0, 0] ⟨3, ![1, K, N]⟩) (hs : s < D) (k : Fin K) (n : Fin N) :
    extractStridedSlice ⟨3, ![1, K, N]⟩ ![s, 0, 0] x h (ix3 (0 : Fin 1) k n) = x (ix3 (⟨s, hs⟩ : Fin D) k n) :=
  extractStridedSlice_apply _ x h _ _ (fun a => by
    match a with
    | ⟨0, _⟩ => rfl
    | ⟨1, _⟩ => show k.val = 0 + k.val; omega
    | ⟨2, _⟩ => show n.val = 0 + n.val; omega)

/-- That block viewed as a rank-2 array: at (k, n) the rank-3 array at (s, k, n). -/
theorem slab_reshape_apply {D K N : ℕ} (s : ℕ) (x : (⟨3, ![D, K, N]⟩ : Shape).Idx → α)
    (h : (⟨3, ![D, K, N]⟩ : Shape).Slices ![s, 0, 0] ⟨3, ![1, K, N]⟩)
    (hc : (⟨3, ![1, K, N]⟩ : Shape).ShapeCasts ⟨2, ![K, N]⟩) (hs : s < D) (k : Fin K) (n : Fin N) :
    shapeCast ⟨2, ![K, N]⟩ (extractStridedSlice ⟨3, ![1, K, N]⟩ ![s, 0, 0] x h) hc (ix2 k n)
      = x (ix3 (⟨s, hs⟩ : Fin D) k n) := by
  refine (shapeCast_dropUnit_apply ![K, N] _ hc (ix2 k n)).trans ?_
  have e : (Fin.cons ⟨0, Nat.one_pos⟩ (ix2 k n) : (⟨3, ![1, K, N]⟩ : Shape).Idx) = ix3 (0 : Fin 1) k n := by
    funext a
    match a with
    | ⟨0, _⟩ => rfl
    | ⟨1, _⟩ => rfl
    | ⟨2, _⟩ => rfl
  rw [e]
  exact slab_apply s x h hs k n

/-- Row `i` of a rank-2 array, kept as a one-row array. -/
theorem row_apply {R N : ℕ} (i : ℕ) (x : (⟨2, ![R, N]⟩ : Shape).Idx → α)
    (h : (⟨2, ![R, N]⟩ : Shape).Slices ![i, 0] ⟨2, ![1, N]⟩) (hi : i < R) (n : Fin N) :
    extractStridedSlice ⟨2, ![1, N]⟩ ![i, 0] x h (ix2 (0 : Fin 1) n) = x (ix2 (⟨i, hi⟩ : Fin R) n) :=
  extractStridedSlice_apply _ x h _ _ (fun a => by
    match a with
    | ⟨0, _⟩ => rfl
    | ⟨1, _⟩ => show n.val = 0 + n.val; omega)

/-- That one-row array viewed as a vector: at n the array at (i, n). -/
theorem row_reshape_apply {R N : ℕ} (i : ℕ) (x : (⟨2, ![R, N]⟩ : Shape).Idx → α)
    (h : (⟨2, ![R, N]⟩ : Shape).Slices ![i, 0] ⟨2, ![1, N]⟩)
    (hc : (⟨2, ![1, N]⟩ : Shape).ShapeCasts ⟨1, ![N]⟩) (hi : i < R) (n : Fin N) :
    shapeCast ⟨1, ![N]⟩ (extractStridedSlice ⟨2, ![1, N]⟩ ![i, 0] x h) hc (ix1 n) = x (ix2 (⟨i, hi⟩ : Fin R) n) := by
  refine (shapeCast_dropUnit_apply ![N] _ hc (ix1 n)).trans ?_
  have e : (Fin.cons ⟨0, Nat.one_pos⟩ (ix1 n) : (⟨2, ![1, N]⟩ : Shape).Idx) = ix2 (0 : Fin 1) n := by
    funext a
    match a with
    | ⟨0, _⟩ => rfl
    | ⟨1, _⟩ => rfl
  rw [e]
  exact row_apply i x h hi n

/-- A vector viewed as a one-row array: at (0, n) the vector at n. -/
theorem vec_as_row_apply {N : ℕ} (v : (⟨1, ![N]⟩ : Shape).Idx → α)
    (hc : (⟨1, ![N]⟩ : Shape).ShapeCasts ⟨2, ![1, N]⟩) (n : Fin N) :
    shapeCast ⟨2, ![1, N]⟩ v hc (ix2 (0 : Fin 1) n) = v (ix1 n) := by
  refine (shapeCast_addUnit_apply ![N] v hc (ix2 (0 : Fin 1) n)).trans ?_
  congr 1
  funext a
  match a with
  | ⟨0, _⟩ => rfl

/-- Row `i` of a rank-2 array taken out as a vector and viewed again as a one-row array: at (0, n) the array at (i, n). -/
theorem row_reshape_row_apply {R N : ℕ} (i : ℕ) (x : (⟨2, ![R, N]⟩ : Shape).Idx → α)
    (h : (⟨2, ![R, N]⟩ : Shape).Slices ![i, 0] ⟨2, ![1, N]⟩)
    (hc : (⟨2, ![1, N]⟩ : Shape).ShapeCasts ⟨1, ![N]⟩) (hc' : (⟨1, ![N]⟩ : Shape).ShapeCasts ⟨2, ![1, N]⟩)
    (hi : i < R) (n : Fin N) :
    shapeCast ⟨2, ![1, N]⟩ (shapeCast ⟨1, ![N]⟩ (extractStridedSlice ⟨2, ![1, N]⟩ ![i, 0] x h) hc) hc' (ix2 (0 : Fin 1) n)
      = x (ix2 (⟨i, hi⟩ : Fin R) n) :=
  (vec_as_row_apply _ hc' n).trans (row_reshape_apply i x h hc hi n)

end Cert.LibConcatPieces

end
-- ==== Proof.Blocks.lean ====
import proofs.«115538_g3659312136369_retrytranche1_448_7_alg».proof.Proof.Gen.KernelIdeal.Frame
import proofs.«115538_g3659312136369_retrytranche1_448_7_alg».proof.Proof.LibConcatPieces
import Idealize.ShloMosaic.Lib.Pipeline.Value
import Idealize.ShloMosaic.Lib.ValueIdx
import Idealize.ShloMosaic.Lib.ValueLayout
import Idealize.ShloMosaic.Lib.StableHlo.Run

/-!
# The blocks a grid point sees

At grid point `t` the first node type's block is rows `4000 t … 4000 t + 3999` of its array, the other two node types'
blocks are rows `3000 t … 3000 t + 2999` of theirs, the weights' block is the whole matrix and the bias' block is the
bias laid out as one row.
-/

noncomputable section

open scoped BigOperators

namespace Cert.KernelIdeal.Blocks

open Idealize.ShloMosaic Idealize.ShloMosaic.ValueIdx Idealize.ShloMosaic.TcCoe Idealize.SL.Sem
open Cert.KernelIdeal Cert.KernelIdeal.Gen

variable {F : FTy → Type} [FloatOps F]
variable (m : (ℓ : Loc nD τ sig) → Buf (Elt F) ℓ)

theorem idx0 (t : Fin cfg0.N) : win0_0.index t 0 = t.val ∧ win0_0.index t 1 = 0 := by
  rcases fin_N0 t with rfl | rfl | rfl | rfl | rfl <;> decide

theorem idx1 (t : Fin cfg0.N) : win0_1.index t 0 = t.val ∧ win0_1.index t 1 = 0 := by
  rcases fin_N0 t with rfl | rfl | rfl | rfl | rfl <;> decide

theorem idx2 (t : Fin cfg0.N) : win0_2.index t 0 = t.val ∧ win0_2.index t 1 = 0 := by
  rcases fin_N0 t with rfl | rfl | rfl | rfl | rfl <;> decide

theorem idx3 (t : Fin cfg0.N) : win0_3.index t 0 = 0 ∧ win0_3.index t 1 = 0 := by
  rcases fin_N0 t with rfl | rfl | rfl | rfl | rfl <;> decide

theorem idx4 (t : Fin cfg0.N) : win0_4.index t 0 = 0 ∧ win0_4.index t 1 = 0 := by
  rcases fin_N0 t with rfl | rfl | rfl | rfl | rfl <;> decide

/-- Row `r` of the first node type's block at point `t` is row `4000 t + r` of its array. -/
theorem iblk0_apply (c : Dev nD) (t : Fin cfg0.N) (r : Fin 4000) (a : Fin 256)
    (h : 4000 * t.val + r.val < 20000) :
    (iblk m c 0 t : Vec F S4000x256 .f32) (ix2 r a)
      = (m ((c : Thread nD τ).loc main_arg0) : S20000x256.Idx → Elt F .f32) (ix2 ⟨4000 * t.val + r.val, h⟩ a) := by
  unfold iblk
  rw [View.read_apply]
  show V m c main_arg0 _ = _
  rw [V_main_arg0]
  congr 1
  funext d
  apply Fin.ext
  match d with
  | ⟨0, _⟩ => show win0_0.index t 0 * 4000 + 1 * r.val = 4000 * t.val + r.val; rw [(idx0 t).1]; omega
  | ⟨1, _⟩ => show win0_0.index t 1 * 256 + 1 * a.val = a.val; rw [(idx0 t).2]; omega

/-- Row `r` of the second node type's block at point `t` is row `3000 t + r` of its array. -/
theorem iblk1_apply (c : Dev nD) (t : Fin cfg0.N) (r : Fin 3000) (a : Fin 256)
    (h : 3000 * t.val + r.val < 15000) :
    (iblk m c 1 t : Vec F S3000x256 .f32) (ix2 r a)
      = (m ((c : Thread nD τ).loc main_arg1) : S15000x256.Idx → Elt F .f32) (ix2 ⟨3000 * t.val + r.val, h⟩ a) := by
  unfold iblk
  rw [View.read_apply]
  show V m c main_arg1 _ = _
  rw [V_main_arg1]
  congr 1
  funext d
  apply Fin.ext
  match d with
  | ⟨0, _⟩ => show win0_1.index t 0 * 3000 + 1 * r.val = 3000 * t.val + r.val; rw [(idx1 t).1]; omega
  | ⟨1, _⟩ => show win0_1.index t 1 * 256 + 1 * a.val = a.val; rw [(idx1 t).2]; omega

/-- Row `r` of the third node type's block at point `t` is row `3000 t + r` of its array. -/
theorem iblk2_apply (c : Dev nD) (t : Fin cfg0.N) (r : Fin 3000) (a : Fin 256)
    (h : 3000 * t.val + r.val < 15000) :
    (iblk m c 2 t : Vec F S3000x256 .f32) (ix2 r a)
      = (m ((c : Thread nD τ).loc main_arg2) : S15000x256.Idx → Elt F .f32) (ix2 ⟨3000 * t.val + r.val, h⟩ a) := by
  unfold iblk
  rw [View.read_apply]
  show V m c main_arg2 _ = _
  rw [V_main_arg2]
  congr 1
  funext d
  apply Fin.ext
  match d with
  | ⟨0, _⟩ => show win0_2.index t 0 * 3000 + 1 * r.val = 3000 * t.val + r.val; rw [(idx2 t).1]; omega
  | ⟨1, _⟩ => show win0_2.index t 1 * 256 + 1 * a.val = a.val; rw [(idx2 t).2]; omega

/-- The weights' block is the whole matrix at every point. -/
theorem iblk3_apply (c : Dev nD) (t : Fin cfg0.N) (a q : Fin 256) :
    (iblk m c 3 t : Vec F S256x256 .f32) (ix2 a q)
      = (m ((c : Thread nD τ).loc main_arg3) : S256x256.Idx → Elt F .f32) (ix2 a q) := by
  unfold iblk
  rw [View.read_apply]
  show V m c main_arg3 _ = _
  rw [V_main_arg3]
  congr 1
  funext d
  apply Fin.ext
  match d with
  | ⟨0, _⟩ => show win0_3.index t 0 * 256 + 1 * a.val = a.val; rw [(idx3 t).1]; omega
  | ⟨1, _⟩ => show win0_3.index t 1 * 256 + 1 * q.val = q.val; rw [(idx3 t).2]; omega

/-- The bias as the region finds it: the vector laid out as one row. -/
theorem V_main_v0 (c : Dev nD) :
    (V m c main_v0 : S1x256.Idx → Elt F .f32)
      = shapeCast S1x256 (m ((c : Thread nD τ).loc main_arg4)) shapeCasts_S256_S1x256 := by
  show StableHlo.after hostOps0 (fun b => m (c, b)) (Proc.devRef .tc main_v0) = _
  after_results
  rfl

/-- The bias' block at column `q` is the bias at `q`. -/
theorem iblk4_apply (c : Dev nD) (t : Fin cfg0.N) (q : Fin 256) :
    (iblk m c 4 t : Vec F S1x256 .f32) (ix2 (0 : Fin 1) q)
      = (m ((c : Thread nD τ).loc main_arg4) : S256.Idx → Elt F .f32) (ix1 q) := by
  unfold iblk
  rw [View.read_apply]
  show V m c main_v0 _ = _
  rw [V_main_v0]
  refine Eq.trans (congrArg _ (?_ : _ = ix2 (0 : Fin 1) q)) (Cert.LibConcatPieces.vec_as_row_apply _ _ q)
  funext d
  apply Fin.ext
  match d with
  | ⟨0, _⟩ => show win0_4.index t 0 * 1 + 1 * 0 = 0; rw [(idx4 t).1]
  | ⟨1, _⟩ => show win0_4.index t 1 * 256 + 1 * q.val = q.val; rw [(idx4 t).2]; omega

end Cert.KernelIdeal.Blocks

end
-- ==== Proof.State.lean ====
import proofs.«115538_g3659312136369_retrytranche1_448_7_alg».proof.Proof.Gen.KernelIdeal.Frame
import proofs.«115538_g3659312136369_retrytranche1_448_7_alg».proof.Proof.KernelTerms
import proofs.«115538_g3659312136369_retrytranche1_448_7_alg».proof.Proof.KernelPieces
import proofs.«115538_g3659312136369_retrytranche1_448_7_alg».proof.Proof.KernelCols
import proofs.«115538_g3659312136369_retrytranche1_448_7_alg».proof.Proof.Blocks
import proofs.«115538_g3659312136369_retrytranche1_448_7_alg».proof.Proof.PoolSpec
import proofs.«115538_g3659312136369_retrytranche1_448_7_alg».proof.Proof.LibRealSums
import proofs.«115538_g3659312136369_retrytranche1_448_7_alg».proof.Proof.LibSoftmaxShift
import proofs.«115538_g3659312136369_retrytranche1_448_7_alg».proof.Proof.LibConcatPieces

/-!
# The running state, grid point by grid point

After grid point `k` the three scratch rows hold, in every column, the summary (largest logit, sum of exponentials,
feature-weighted sum) of the rows seen so far: rows `0 … 4000 (k+1) - 1` of the first node type and rows
`0 … 3000 (k+1) - 1` of the other two.  After the last point every row has been seen, and the output is the readout.
-/

noncomputable section

open scoped BigOperators

namespace Cert.KernelIdeal.State

open Idealize.ShloMosaic Idealize.ShloMosaic.ValueIdx Idealize.ShloMosaic.TcCoe Idealize.SL.Sem
open Cert.KernelIdeal Cert.KernelIdeal.Gen Cert.Pool Cert.RealSums

/-! ## Which rows have been seen -/

/-- A stretch of `len` consecutive rows of the joined table, starting at `base`. -/
def seg (base len : ℕ) (h : base + len ≤ 50000) (r : Fin len) : Fin 50000 := ⟨base + r.val, by have := r.isLt; omega⟩

theorem seg_injective (base len : ℕ) (h : base + len ≤ 50000) : Function.Injective (seg base len h) := by
  intro a b hab
  have := congrArg Fin.val hab
  simp only [seg] at this
  exact Fin.ext (by omega)

theorem mem_image_seg (base len : ℕ) (h : base + len ≤ 50000) (n : Fin 50000) :
    n ∈ Finset.univ.image (seg base len h) ↔ base ≤ n.val ∧ n.val < base + len := by
  simp only [Finset.mem_image, Finset.mem_univ, true_and]
  constructor
  · rintro ⟨r, rfl⟩
    have := r.isLt
    simp only [seg]
    omega
  · rintro ⟨h1, h2⟩
    exact ⟨⟨n.val - base, by omega⟩, Fin.ext (by simp only [seg]; omega)⟩

/-- The rows seen when `k0` tiles of the first node type, `k1` of the second and `k2` of the third are folded in. -/
def rowsSeen (k0 k1 k2 : ℕ) : Finset (Fin 50000) :=
  Finset.univ.filter fun n => n.val < 4000 * k0 ∨ (20000 ≤ n.val ∧ n.val < 20000 + 3000 * k1) ∨ (35000 ≤ n.val ∧ n.val < 35000 + 3000 * k2)

theorem rowsSeen_zero : rowsSeen 0 0 0 = ∅ := by
  ext n
  simp only [rowsSeen, Finset.mem_filter, Finset.mem_univ, true_and, Finset.notMem_empty, iff_false]
  omega

theorem rowsSeen_all : rowsSeen 5 5 5 = Finset.univ := by
  ext n
  have := n.isLt
  simp only [rowsSeen, Finset.mem_filter, Finset.mem_univ, true_and, iff_true]
  omega

theorem rowsSeen_add0 (k : ℕ) (hk : k < 5) :
    rowsSeen k k k ∪ Finset.univ.image (seg (4000 * k) 4000 (by omega)) = rowsSeen (k + 1) k k := by
  ext n
  have := n.isLt
  simp only [Finset.mem_union, mem_image_seg, rowsSeen, Finset.mem_filter, Finset.mem_univ, true_and]
  omega

theorem rowsSeen_add1 (k : ℕ) (hk : k < 5) :
    rowsSeen (k + 1) k k ∪ Finset.univ.image (seg (20000 + 3000 * k) 3000 (by omega)) = rowsSeen (k + 1) (k + 1) k := by
  ext n
  have := n.isLt
  simp only [Finset.mem_union, mem_image_seg, rowsSeen, Finset.mem_filter, Finset.mem_univ, true_and]
  omega

theorem rowsSeen_add2 (k : ℕ) (hk : k < 5) :
    rowsSeen (k + 1) (k + 1) k ∪ Finset.univ.image (seg (35000 + 3000 * k) 3000 (by omega)) = rowsSeen (k + 1) (k + 1) (k + 1) := by
  ext n
  have := n.isLt
  simp only [Finset.mem_union, mem_image_seg, rowsSeen, Finset.mem_filter, Finset.mem_univ, true_and]
  omega

theorem seg0_notMem (k : ℕ) (hk : k < 5) (r : Fin 4000) : seg (4000 * k) 4000 (by omega) r ∉ rowsSeen k k k := by
  have := r.isLt
  simp only [rowsSeen, seg, Finset.mem_filter, Finset.mem_univ, true_and]
  omega

theorem seg1_notMem (k : ℕ) (hk : k < 5) (r : Fin 3000) : seg (20000 + 3000 * k) 3000 (by omega) r ∉ rowsSeen (k + 1) k k := by
  have := r.isLt
  simp only [rowsSeen, seg, Finset.mem_filter, Finset.mem_univ, true_and]
  omega

theorem seg2_notMem (k : ℕ) (hk : k < 5) (r : Fin 3000) : seg (35000 + 3000 * k) 3000 (by omega) r ∉ rowsSeen (k + 1) (k + 1) k := by
  have := r.isLt
  simp only [rowsSeen, seg, Finset.mem_filter, Finset.mem_univ, true_and]
  omega

/-! ## A tile's logits and features are the table's -/

theorem coe_toReal_of_isReal {x : EReal} (h : IsReal x) : x = ((x.toReal : ℝ) : EReal) := by
  obtain ⟨r, rfl⟩ := h
  rw [EReal.toReal_coe]

section Table

variable (X0 : (⟨2, ![20000, 256]⟩ : Shape).Idx → EReal) (X1 X2 : (⟨2, ![15000, 256]⟩ : Shape).Idx → EReal)
  (W : (⟨2, ![256, 256]⟩ : Shape).Idx → EReal) (Bv : (⟨1, ![256]⟩ : Shape).Idx → EReal)

/-- Folding in a tile whose entries are the table's rows `base … base + R - 1`, with the table's weights and bias. -/
theorem tile_step (q : Fin 256) (A : Finset (Fin 50000)) (st : EReal × EReal × EReal)
    (hA : Rep (fun n => logit X0 X1 X2 W Bv n q) (fun n => feat X0 X1 X2 n q) A st)
    {R : ℕ} (hR : 0 < R) (base : ℕ) (hb : base + R ≤ 50000) (hd : ∀ r, seg base R hb r ∉ A)
    (x : (⟨2, ![R, 256]⟩ : Shape).Idx → EReal) (w : (⟨2, ![256, 256]⟩ : Shape).Idx → EReal)
    (b : (⟨2, ![1, 256]⟩ : Shape).Idx → EReal)
    (hx : ∀ r a, x (ix2 r a) = ((feat X0 X1 X2 (seg base R hb r) a : ℝ) : EReal))
    (hw : ∀ a, w (ix2 a q) = (((W (ix2 a q)).toReal : ℝ) : EReal))
    (hbias : b (ix2 0 q) = (((Bv (ix1 q)).toReal : ℝ) : EReal)) :
    Rep (fun n => logit X0 X1 X2 W Bv n q) (fun n => feat X0 X1 X2 n q) (A ∪ Finset.univ.image (seg base R hb))
      (step (tileLogit x w b q) (tileCol x q) st) := by
  refine rep_step _ _ A st hA hR (seg base R hb) (seg_injective base R hb) hd _ _ (fun r => ?_) (fun r => hx r q)
  unfold tileLogit logit
  rw [hbias, EReal.coe_add, Cert.LibSoftmaxShift.coe_sum]
  congr 1
  refine Finset.sum_congr rfl fun a _ => ?_
  rw [hx, hw, EReal.coe_mul]

theorem feat_first (n : Fin 50000) (a : Fin 256) (j : Fin 20000) (hj : j.val = n.val) :
    feat X0 X1 X2 n a = (X0 (ix2 j a)).toReal := by
  have h : n.val < 20000 := by have := j.isLt; omega
  unfold feat
  rw [dif_pos h]
  have e : (⟨n.val, h⟩ : Fin 20000) = j := Fin.ext hj.symm
  rw [e]

theorem feat_second (n : Fin 50000) (a : Fin 256) (j : Fin 15000) (hj : 20000 + j.val = n.val) :
    feat X0 X1 X2 n a = (X1 (ix2 j a)).toReal := by
  have h1 : ¬ n.val < 20000 := by omega
  have h2 : n.val < 35000 := by have := j.isLt; omega
  unfold feat
  rw [dif_neg h1, dif_pos h2]
  have e : (⟨n.val - 20000, by omega⟩ : Fin 15000) = j := Fin.ext (by show n.val - 20000 = j.val; omega)
  rw [e]

theorem feat_third (n : Fin 50000) (a : Fin 256) (j : Fin 15000) (hj : 35000 + j.val = n.val) :
    feat X0 X1 X2 n a = (X2 (ix2 j a)).toReal := by
  have h1 : ¬ n.val < 20000 := by omega
  have h2 : ¬ n.val < 35000 := by omega
  unfold feat
  rw [dif_neg h1, dif_neg h2]
  have e : (⟨n.val - 35000, by have := n.isLt; omega⟩ : Fin 15000) = j := Fin.ext (by show n.val - 35000 = j.val; omega)
  rw [e]

end Table

/-! ## The scratch rows after each grid point -/

section Run

variable (m : (ℓ : Loc nD τ sig) → Buf (Elt Ideal) ℓ) (c : Dev nD)

/-- The five argument arrays. -/
abbrev arr0 : S20000x256.Idx → EReal := m ((c : Thread nD τ).loc main_arg0)
abbrev arr1 : S15000x256.Idx → EReal := m ((c : Thread nD τ).loc main_arg1)
abbrev arr2 : S15000x256.Idx → EReal := m ((c : Thread nD τ).loc main_arg2)
abbrev arr3 : S256x256.Idx → EReal := m ((c : Thread nD τ).loc main_arg3)
abbrev arr4 : S256.Idx → EReal := m ((c : Thread nD τ).loc main_arg4)

/-- Every entry of the five arguments is a real number. -/
structure RealArgs : Prop where
  h0 : ∀ i, IsReal (arr0 m c i)
  h1 : ∀ i, IsReal (arr1 m c i)
  h2 : ∀ i, IsReal (arr2 m c i)
  h3 : ∀ i, IsReal (arr3 m c i)
  h4 : ∀ i, IsReal (arr4 m c i)

/-- Column `q`'s logits and features over the joined table. -/
abbrev lq (q : Fin 256) : Fin 50000 → ℝ := fun n => logit (arr0 m c) (arr1 m c) (arr2 m c) (arr3 m c) (arr4 m c) n q
abbrev xq (q : Fin 256) : Fin 50000 → ℝ := fun n => feat (arr0 m c) (arr1 m c) (arr2 m c) n q

/-- Column `q` of the three scratch rows after grid point `n`. -/
def colState (n : ℕ) (h : n < cfg0.N) (q : Fin 256) : EReal × EReal × EReal :=
  ((outsAt0 m c n h).2.1 (ix2 (0 : Fin 1) q), (outsAt0 m c n h).2.2.1 (ix2 (0 : Fin 1) q), (outsAt0 m c n h).2.2.2 (ix2 (0 : Fin 1) q))

/-- One grid point: from a summary of the rows seen before point `t` to a summary of the rows seen after it. -/
theorem col3_rep (hr : RealArgs m c) (t : Fin cfg0.N) (q : Fin 256) (pm pz ps : Vec Ideal S1x256 .f32)
    (hprev : Rep (lq m c q) (xq m c q) (rowsSeen t.val t.val t.val) (pm (ix2 (0 : Fin 1) q), pz (ix2 (0 : Fin 1) q), ps (ix2 (0 : Fin 1) q))) :
    Rep (lq m c q) (xq m c q) (rowsSeen (t.val + 1) (t.val + 1) (t.val + 1))
      (col3 pm pz ps (iblk m c 3 t) (iblk m c 4 t) (iblk m c 0 t) (iblk m c 1 t) (iblk m c 2 t) q) := by
  have hk : t.val < 5 := lt_of_lt_of_eq t.isLt (show cfg0.N = 5 from N_0)
  have hw : ∀ a, (iblk m c 3 t : Vec Ideal S256x256 .f32) (ix2 a q) = (((arr3 m c (ix2 a q)).toReal : ℝ) : EReal) := fun a => by
    rw [Blocks.iblk3_apply]; exact coe_toReal_of_isReal (hr.h3 _)
  have hb : (iblk m c 4 t : Vec Ideal S1x256 .f32) (ix2 (0 : Fin 1) q) = (((arr4 m c (ix1 q)).toReal : ℝ) : EReal) := by
    rw [Blocks.iblk4_apply]; exact coe_toReal_of_isReal (hr.h4 _)
  have hx0 : ∀ (r : Fin 4000) (a : Fin 256), (iblk m c 0 t : Vec Ideal S4000x256 .f32) (ix2 r a)
      = ((feat (arr0 m c) (arr1 m c) (arr2 m c) (seg (4000 * t.val) 4000 (by omega) r) a : ℝ) : EReal) := fun r a => by
    have hlt : 4000 * t.val + r.val < 20000 := by have := r.isLt; omega
    rw [Blocks.iblk0_apply m c t r a hlt, feat_first _ _ _ _ a ⟨4000 * t.val + r.val, hlt⟩ rfl]
    exact coe_toReal_of_isReal (hr.h0 _)
  have hx1 : ∀ (r : Fin 3000) (a : Fin 256), (iblk m c 1 t : Vec Ideal S3000x256 .f32) (ix2 r a)
      = ((feat (arr0 m c) (arr1 m c) (arr2 m c) (seg (20000 + 3000 * t.val) 3000 (by omega) r) a : ℝ) : EReal) := fun r a => by
    have hlt : 3000 * t.val + r.val < 15000 := by have := r.isLt; omega
    rw [Blocks.iblk1_apply m c t r a hlt, feat_second _ _ _ _ a ⟨3000 * t.val + r.val, hlt⟩ (by simp only [seg]; omega)]
    exact coe_toReal_of_isReal (hr.h1 _)
  have hx2 : ∀ (r : Fin 3000) (a : Fin 256), (iblk m c 2 t : Vec Ideal S3000x256 .f32) (ix2 r a)
      = ((feat (arr0 m c) (arr1 m c) (arr2 m c) (seg (35000 + 3000 * t.val) 3000 (by omega) r) a : ℝ) : EReal) := fun r a => by
    have hlt : 3000 * t.val + r.val < 15000 := by have := r.isLt; omega
    rw [Blocks.iblk2_apply m c t r a hlt, feat_third _ _ _ _ a ⟨3000 * t.val + r.val, hlt⟩ (by simp only [seg]; omega)]
    exact coe_toReal_of_isReal (hr.h2 _)
  unfold col3
  have s0 := tile_step (arr0 m c) (arr1 m c) (arr2 m c) (arr3 m c) (arr4 m c) q _ _ hprev (by norm_num : 0 < 4000)
    (4000 * t.val) (by omega) (seg0_notMem t.val hk) (iblk m c 0 t) (iblk m c 3 t) (iblk m c 4 t) hx0 hw hb
  rw [rowsSeen_add0 t.val hk] at s0
  have s1 := tile_step (arr0 m c) (arr1 m c) (arr2 m c) (arr3 m c) (arr4 m c) q _ _ s0 (by norm_num : 0 < 3000)
    (20000 + 3000 * t.val) (by omega) (seg1_notMem t.val hk) (iblk m c 1 t) (iblk m c 3 t) (iblk m c 4 t) hx1 hw hb
  rw [rowsSeen_add1 t.val hk] at s1
  have s2 := tile_step (arr0 m c) (arr1 m c) (arr2 m c) (arr3 m c) (arr4 m c) q _ _ s1 (by norm_num : 0 < 3000)
    (35000 + 3000 * t.val) (by omega) (seg2_notMem t.val hk) (iblk m c 2 t) (iblk m c 3 t) (iblk m c 4 t) hx2 hw hb
  rw [rowsSeen_add2 t.val hk] at s2
  exact s2

/-- The first point: the reset state with the point's three tiles folded in. -/
theorem state_A (t : Fin cfg0.N) (h0 : t.val % 5 = 0) (h1 : ¬t.val % 5 = 4) (q : Fin 256) :
    colState m c t.val t.isLt q
      = col3 (Pieces.initM (F := Ideal)) (Pieces.initZ (F := Ideal)) (Pieces.initS (F := Ideal))
          (iblk m c 3 t) (iblk m c 4 t) (iblk m c 0 t) (iblk m c 1 t) (iblk m c 2 t) q := by
  unfold colState
  rw [outsAt0_A m c t h0 h1]
  dsimp only
  rw [Pieces.sout_A_0, Pieces.sout_A_1, Pieces.sout_A_2]
  rw [Cols.newM_apply _ (Pieces.initZ (F := Ideal)) (Pieces.initS (F := Ideal)),
    Cols.newZ_apply _ _ (Pieces.initS (F := Ideal)), Cols.newS_apply _ (Pieces.initZ (F := Ideal))]

/-- A middle point: what the point before left, with the point's three tiles folded in. -/
theorem state_B (t : Fin cfg0.N) (h0 : ¬t.val % 5 = 0) (h1 : ¬t.val % 5 = 4) (q : Fin 256) :
    colState m c t.val t.isLt q
      = col3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
          (iblk m c 3 t) (iblk m c 4 t) (iblk m c 0 t) (iblk m c 1 t) (iblk m c 2 t) q := by
  unfold colState
  rw [outsAt0_B m c t h0 h1]
  dsimp only
  rw [Pieces.sout_B_0, Pieces.sout_B_1, Pieces.sout_B_2]
  rw [Cols.newM_apply _ (outsAt0 m c (t.val - 1) (Nat.lt_of_le_of_lt (Nat.sub_le _ _) t.isLt)).2.2.1 (outsAt0 m c (t.val - 1) (Nat.lt_of_le_of_lt (Nat.sub_le _ _) t.isLt)).2.2.2,
    Cols.newZ_apply _ _ (outsAt0 m c (t.val - 1) (Nat.lt_of_le_of_lt (Nat.sub_le _ _) t.isLt)).2.2.2, Cols.newS_apply _ (outsAt0 m c (t.val - 1) (Nat.lt_of_le_of_lt (Nat.sub_le _ _) t.isLt)).2.2.1]

/-- The last point: the same. -/
theorem state_C (t : Fin cfg0.N) (h0 : ¬t.val % 5 = 0) (h1 : t.val % 5 = 4) (q : Fin 256) :
    colState m c t.val t.isLt q
      = col3 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
          (iblk m c 3 t) (iblk m c 4 t) (iblk m c 0 t) (iblk m c 1 t) (iblk m c 2 t) q := by
  unfold colState
  rw [outsAt0_C m c t h0 h1]
  dsimp only
  rw [Pieces.sout_C_0, Pieces.sout_C_1, Pieces.sout_C_2]
  rw [Cols.newM_apply _ (outsAt0 m c (t.val - 1) (Nat.lt_of_le_of_lt (Nat.sub_le _ _) t.isLt)).2.2.1 (outsAt0 m c (t.val - 1) (Nat.lt_of_le_of_lt (Nat.sub_le _ _) t.isLt)).2.2.2,
    Cols.newZ_apply _ _ (outsAt0 m c (t.val - 1) (Nat.lt_of_le_of_lt (Nat.sub_le _ _) t.isLt)).2.2.2, Cols.newS_apply _ (outsAt0 m c (t.val - 1) (Nat.lt_of_le_of_lt (Nat.sub_le _ _) t.isLt)).2.2.1]

/-- After grid point `n`, column `q` of the scratch rows summarises the rows of the first `n + 1` tiles of each node type. -/
theorem colState_rep (hr : RealArgs m c) : ∀ (n : ℕ) (h : n < cfg0.N) (q : Fin 256),
    Rep (lq m c q) (xq m c q) (rowsSeen (n + 1) (n + 1) (n + 1)) (colState m c n h q)
  | 0, h, q => by
    rw [state_A m c ⟨0, h⟩ rfl (by show ¬ (0 : ℕ) % 5 = 4; decide) q]
    refine col3_rep m c hr ⟨0, h⟩ q _ _ _ ?_
    rw [Cols.init_apply q]
    show Rep _ _ (rowsSeen 0 0 0) _
    rw [rowsSeen_zero]
    exact rep_empty _ _
  | n + 1, h, q => by
    have hN : n + 1 < 5 := lt_of_lt_of_eq h (show cfg0.N = 5 from N_0)
    have ih := colState_rep hr n (Nat.lt_of_succ_lt h) q
    have e : colState m c (n + 1) h q
        = col3 (outsAt0 m c n (Nat.lt_of_succ_lt h)).2.1 (outsAt0 m c n (Nat.lt_of_succ_lt h)).2.2.1 (outsAt0 m c n (Nat.lt_of_succ_lt h)).2.2.2
            (iblk m c 3 ⟨n + 1, h⟩) (iblk m c 4 ⟨n + 1, h⟩) (iblk m c 0 ⟨n + 1, h⟩) (iblk m c 1 ⟨n + 1, h⟩) (iblk m c 2 ⟨n + 1, h⟩) q := by
      by_cases h1 : (n + 1) % 5 = 4
      · exact state_C m c ⟨n + 1, h⟩ (by show ¬(n + 1) % 5 = 0; omega) h1 q
      · exact state_B m c ⟨n + 1, h⟩ (by show ¬(n + 1) % 5 = 0; omega) h1 q
    rw [e]
    exact col3_rep m c hr ⟨n + 1, h⟩ q _ _ _ ih

/-- The output of the last point is the readout. -/
theorem out_last (hr : RealArgs m c) (h4 : 4 < cfg0.N) (j : S1x1.Idx) :
    (outsAt0 m c 4 h4).1 j
      = ((∑ q : Fin 256, colPool (lq m c q) (xq m c q) : ℝ) : EReal) := by
  have h3 : 3 < cfg0.N := Nat.lt_of_succ_lt h4
  rw [outsAt0_C m c ⟨4, h4⟩ (by show ¬ (4 : ℕ) % 5 = 0; decide) rfl]
  dsimp only
  rw [Pieces.out_C_5, Cols.outV_apply, Cert.LibSoftmaxShift.coe_sum]
  refine Finset.sum_congr rfl fun q _ => ?_
  have hrep := col3_rep m c hr ⟨4, h4⟩ q _ _ _ (colState_rep m c hr 3 h3 q)
  have h5 : rowsSeen ((⟨4, h4⟩ : Fin cfg0.N).val + 1) ((⟨4, h4⟩ : Fin cfg0.N).val + 1) ((⟨4, h4⟩ : Fin cfg0.N).val + 1) = Finset.univ := rowsSeen_all
  rw [h5] at hrep
  exact div_of_rep _ _ _ hrep

end Run

end Cert.KernelIdeal.State

end
-- ==== Proof.KernelRun.lean ====
import proofs.«115538_g3659312136369_retrytranche1_448_7_alg».proof.Proof.Gen.KernelIdeal.Frame
import proofs.«115538_g3659312136369_retrytranche1_448_7_alg».proof.Proof.State
import proofs.«115538_g3659312136369_retrytranche1_448_7_alg».proof.Proof.PoolSpec
import Idealize.ShloMosaic.Lib.Pipeline.Value
import Idealize.ShloMosaic.Lib.StableHlo.Run
import Idealize.ShloMosaic.Lib.Tactic

/-!
# The kernel's result

The output's one block is written back once, after the last grid point, and it is the whole one-element array; the
line after the region lays that element out as a vector of length one.  So the kernel's result is the readout.
-/

noncomputable section

open scoped BigOperators

namespace Cert.KernelIdeal.RunValue

open Idealize.ShloMosaic Idealize.ShloMosaic.ValueIdx Idealize.ShloMosaic.TcCoe Idealize.SL.Sem
open Idealize.ShloMosaic.Pipeline (Dat)
open Cert.KernelIdeal Cert.KernelIdeal.Gen Cert.Pool Cert.RealSums Cert.KernelIdeal.State

variable (m : (ℓ : Loc nD τ sig) → Buf (Elt Ideal) ℓ) (ρ : Dev nD → PrngReg)

/-- The readout as the contents of the region's one-element result array. -/
def result (c : Dev nD) : Buf (Elt Ideal) ((c : Thread nD τ).loc main_v1) :=
  fun _ => ((∑ q : Fin 256, colPool (lq m c q) (xq m c q) : ℝ) : EReal)

/-- The one write-back, after the last point, writes the readout. -/
theorem flushed_eq (hr : ∀ c, RealArgs m c) (c : Dev nD) (t : Fin cfg0.N) (hf : (cfg0.win 5).flush t = true) :
    (dats m 0 c).flushed 5 t = ((cfg0.win 5).blk t).view.read (Elt Ideal) (result m c) := by
  have hN : cfg0.N = 5 := N_0
  have h4 : t.val = 4 := by have := (flush0_5 t).mp hf; have := t.isLt; omega
  obtain rfl : t = t0_4 := Fin.ext h4
  show (cfg0.win 5).cut (grid0.coords t0_4) ((dats m 0 c).after 5 t0_4) = _
  rw [after0_5]
  have e : (outsAt0 m c t0_4.val t0_4.isLt).1 = result m c := funext fun j => out_last m c (hr c) _ j
  rw [e]
  have hz' : (fun a => win0_5.index t0_4 a * main_v1.ty.shape.size a) = fun _ => 0 := funext fun a => by fin_cases a <;> decide
  exact (Memref.read_access_unit_zero (Elt Ideal) main_v1 hz' (fun a => by rw [congrFun hz' a]; simp) (result m c)).symm

/-- So the region's result array ends holding the readout: the last point's block is the whole array. -/
theorem final_o (hr : ∀ c, RealArgs m c) (c : Dev nD) : (dats m 0 c).arrAt 5 cfg0.N = result m c :=
  (dats m 0 c).arrAt_eq_of_cover 5 (result m c) (flushed_eq m hr c) fun i =>
    ⟨t0_4, (flush0_5 t0_4).mpr rfl, by
      show i ∈ ((View.whole main_v1).slice (win0_5.rect t0_4)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index t0_4 0 * win0_5.size 0 ≤ (i 0 : Nat) ∧ (i 0 : Nat) < win0_5.index t0_4 0 * win0_5.size 0 + win0_5.xsize (grid0.coords t0_4) 0
        rw [show win0_5.index t0_4 0 * win0_5.size 0 = 0 from by decide +kernel, show win0_5.xsize (grid0.coords t0_4) 0 = 1 from by decide +kernel]
        omega
      | ⟨1, _⟩ =>
        show win0_5.index t0_4 1 * win0_5.size 1 ≤ (i 1 : Nat) ∧ (i 1 : Nat) < win0_5.index t0_4 1 * win0_5.size 1 + win0_5.xsize (grid0.coords t0_4) 1
        rw [show win0_5.index t0_4 1 * win0_5.size 1 = 0 from by decide +kernel, show win0_5.xsize (grid0.coords t0_4) 1 = 1 from by decide +kernel]
        omega⟩

/-- The line after the region lays the one element out as a vector: the result is the readout. -/
theorem tail_eq (hr : ∀ c, RealArgs m c) (c : Dev nD) :
    Pipeline.afterTail₀ cfgs (dats m) 0 (V0 m) [hostOps1] c main_v2
      = pooled (arr0 m c) (arr1 m c) (arr2 m c) (arr3 m c) (arr4 m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1)
      = result m c :=
    (Pipeline.withArrays_arr spec0 launch0.win.arr_inj c (V0 m c) (fun w => (dats m 0 c).arrAt w (cfgs 0).N) 5).trans
      (final_o m hr c)
  rw [e]
  rfl

/-- The kernel's run, read: its result is the readout of its arguments, which it leaves unchanged. -/
theorem run (hr : ∀ c, RealArgs m c) :
    θ_run defs (onTc (τ := τ) (main (F := Ideal))) ⟨m, fun _ => 0, ρ⟩ fun r => ∀ c : Dev nD,
      r.2.mem ((c.tc : Thread nD τ).loc main_v2) = pooled (arr0 m c) (arr1 m c) (arr2 m c) (arr3 m c) (arr4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (tail_eq m hr c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.RunValue

end
-- ==== Proof.RefRead.lean ====
import proofs.«115538_g3659312136369_retrytranche1_448_7_alg».proof.Proof.Gen.ReferenceIdeal.Run
import proofs.«115538_g3659312136369_retrytranche1_448_7_alg».proof.Proof.Gen.ReferenceIdeal.Read
import proofs.«115538_g3659312136369_retrytranche1_448_7_alg».proof.Proof.PoolSpec
import proofs.«115538_g3659312136369_retrytranche1_448_7_alg».proof.Proof.LibRealSums
import proofs.«115538_g3659312136369_retrytranche1_448_7_alg».proof.Proof.LibConcatPieces
import Idealize.ShloMosaic.Lib.Pipeline.Value
import Idealize.ShloMosaic.Lib.ValueIdx
import Idealize.ShloMosaic.PureOps.Ideal.Laws

/-!
# The reference, read at its one index

The reference joins the three node types' features into one table, forms the logits `x · W + b`, takes for every column
the largest logit, the exponentials of the differences and their sum, divides, multiplies by the features and sums over
the rows and then over the columns.  With real inputs that is the readout `Cert.Pool.pooled`.
-/

noncomputable section

open scoped BigOperators

namespace Cert.ReferenceIdeal.RefValue

open Idealize.ShloMosaic Idealize.ShloMosaic.ValueIdx Idealize.ShloMosaic.TcCoe Idealize.SL.Sem
open Cert.ReferenceIdeal Cert.ReferenceIdeal.Gen Cert.Pool Cert.RealSums

/-- A real-valued extended real is its real part. -/
theorem coe_toReal_of_isReal {x : EReal} (h : IsReal x) : x = ((x.toReal : ℝ) : EReal) := by
  obtain ⟨r, rfl⟩ := h
  rw [EReal.toReal_coe]

/-- The joined table at row `n`, column `a`: the feature of node `n`, taken from the node type whose rows hold `n`. -/
theorem table_apply (x0 : (⟨S20000x256, .f32⟩ : BufTy).Contents (Elt Ideal)) (x1 x2 : (⟨S15000x256, .f32⟩ : BufTy).Contents (Elt Ideal))
    (h0 : ∀ i, IsReal (x0 i)) (h1 : ∀ i, IsReal (x1 i)) (h2 : ∀ i, IsReal (x2 i)) (n : Fin 50000) (a : Fin 256) :
    Read.val_main_v0 (F := Ideal) x0 x1 x2 (ix2 n a) = ((feat x0 x1 x2 n a : ℝ) : EReal) := by
  unfold Read.val_main_v0 feat
  by_cases c0 : n.val < 20000
  · rw [dif_pos c0]
    refine (LibConcatPieces.rows3_0 x0 x1 x2 _ n ⟨n.val, c0⟩ a rfl).trans ?_
    exact coe_toReal_of_isReal (h0 _)
  · rw [dif_neg c0]
    by_cases c1 : n.val < 35000
    · rw [dif_pos c1]
      refine (LibConcatPieces.rows3_1 x0 x1 x2 _ n ⟨n.val - 20000, by omega⟩ a (by show 20000 + (n.val - 20000) = n.val; omega)).trans ?_
      exact coe_toReal_of_isReal (h1 _)
    · rw [dif_neg c1]
      have hn := n.isLt
      refine (LibConcatPieces.rows3_2 x0 x1 x2 _ n ⟨n.val - 35000, by omega⟩ a (by show 20000 + 15000 + (n.val - 35000) = n.val; omega)).trans ?_
      exact coe_toReal_of_isReal (h2 _)

/-- The logit at row `n`, column `q`: the row of features times column `q` of the weights, plus the bias. -/
theorem logit_apply (x0 : (⟨S20000x256, .f32⟩ : BufTy).Contents (Elt Ideal)) (x1 x2 : (⟨S15000x256, .f32⟩ : BufTy).Contents (Elt Ideal))
    (x3 : (⟨S256x256, .f32⟩ : BufTy).Contents (Elt Ideal)) (x4 : (⟨S256, .f32⟩ : BufTy).Contents (Elt Ideal))
    (h0 : ∀ i, IsReal (x0 i)) (h1 : ∀ i, IsReal (x1 i)) (h2 : ∀ i, IsReal (x2 i)) (h3 : ∀ i, IsReal (x3 i)) (h4 : ∀ i, IsReal (x4 i))
    (n : Fin 50000) (q : Fin 256) :
    Read.val_main_v4 (F := Ideal) x0 x1 x2 x3 x4 (ix2 n q) = ((logit x0 x1 x2 x3 x4 n q : ℝ) : EReal) := by
  rw [Read.val_main_v4_apply, Read.val_main_v1_apply, Read.val_main_v3_apply, Read.val_main_v2_apply]
  unfold logit
  rw [EReal.coe_add, LibSoftmaxShift.coe_sum]
  show (∑ k : Fin 256, _) + _ = _
  congr 1
  · refine Finset.sum_congr rfl fun k _ => ?_
    have e1 : Read.lidx_main_v1 (ix2 n q) k = ix2 n k :=
      funext fun a => Fin.ext (by match a with | ⟨0, _⟩ => rfl | ⟨1, _⟩ => rfl)
    have e2 : Read.ridx_main_v1 (ix2 n q) k = ix2 k q :=
      funext fun a => Fin.ext (by match a with | ⟨0, _⟩ => rfl | ⟨1, _⟩ => rfl)
    rw [e1, e2, table_apply x0 x1 x2 h0 h1 h2, EReal.coe_mul, ← coe_toReal_of_isReal (h3 _)]
  · have e3 : Read.idx_main_v2 (Read.idx_main_v3 (ix2 n q)) = ix1 q :=
      funext fun a => Fin.ext (by match a with | ⟨0, _⟩ => rfl)
    rw [e3]
    exact coe_toReal_of_isReal (h4 _)

/-- The literal the maxima start from is `-∞`. -/
theorem ofBits_neg_inf : Ideal.ofBits .f32 0xFF800000#32 = (⊥ : EReal) := by simp [Ideal.ofBits, Ideal.ieee]

/-- Dropping the rows of the table leaves the columns. -/
theorem reduces_rows : S50000x256.Reduces [0] S256 := by decide

/-- The largest logit of column `q`, as the reference takes it: the maximum with `-∞` of the fold of `max` from `-∞`
    down the column. -/
theorem max_apply (x0 : (⟨S20000x256, .f32⟩ : BufTy).Contents (Elt Ideal)) (x1 x2 : (⟨S15000x256, .f32⟩ : BufTy).Contents (Elt Ideal))
    (x3 : (⟨S256x256, .f32⟩ : BufTy).Contents (Elt Ideal)) (x4 : (⟨S256, .f32⟩ : BufTy).Contents (Elt Ideal))
    (h0 : ∀ i, IsReal (x0 i)) (h1 : ∀ i, IsReal (x1 i)) (h2 : ∀ i, IsReal (x2 i)) (h3 : ∀ i, IsReal (x3 i)) (h4 : ∀ i, IsReal (x4 i)) (q : Fin 256) :
    Read.val_main_v7 (F := Ideal) x0 x1 x2 x3 x4 (ix1 q)
      = ((Finset.univ.sup' Finset.univ_nonempty (fun n : Fin 50000 => logit x0 x1 x2 x3 x4 n q) : ℝ) : EReal) := by
  rw [Read.val_main_v7_apply, Read.val_main_v6_apply, Read.val_main_cst_0_apply]
  unfold Read.val_main_v5
  rw [Host.reduce_eq_fold_single FloatOps.maximumf _ _ reducesTo_S50000x256_S256_d0 reduces_rows h_S_ (ix1 q),
    Read.val_main_cst_apply]
  show max (Ideal.ofBits .f32 0xFF800000#32) ((Finset.univ : Finset (Fin 50000)).fold max (Ideal.ofBits .f32 0xFF800000#32)
    (fun n : Fin 50000 => Read.val_main_v4 (F := Ideal) x0 x1 x2 x3 x4 (reduces_rows.lift (ix1 q) n))) = _
  have e : (fun n : Fin 50000 => Read.val_main_v4 (F := Ideal) x0 x1 x2 x3 x4 (reduces_rows.lift (ix1 q) n))
      = fun n : Fin 50000 => ((logit x0 x1 x2 x3 x4 n q : ℝ) : EReal) := by
    funext n
    have e1 : reduces_rows.lift (ix1 q) n = ix2 n q :=
      funext fun a => Fin.ext (by match a with | ⟨0, _⟩ => rfl | ⟨1, _⟩ => rfl)
    rw [e1, logit_apply x0 x1 x2 x3 x4 h0 h1 h2 h3 h4]
  rw [e, ofBits_neg_inf, max_bot_left]
  exact foldMax_coe _

/-- The exponential at row `n`, column `q`: of the logit less the column's largest. -/
theorem exp_apply (x0 : (⟨S20000x256, .f32⟩ : BufTy).Contents (Elt Ideal)) (x1 x2 : (⟨S15000x256, .f32⟩ : BufTy).Contents (Elt Ideal))
    (x3 : (⟨S256x256, .f32⟩ : BufTy).Contents (Elt Ideal)) (x4 : (⟨S256, .f32⟩ : BufTy).Contents (Elt Ideal)) (n : Fin 50000) (q : Fin 256) :
    Read.val_main_v11 (F := Ideal) x0 x1 x2 x3 x4 (ix2 n q)
      = Ideal.exp (Read.val_main_v4 (F := Ideal) x0 x1 x2 x3 x4 (ix2 n q) - Read.val_main_v7 (F := Ideal) x0 x1 x2 x3 x4 (ix1 q)) := by
  rw [Read.val_main_v11_apply, Read.val_main_v10_apply, Read.val_main_v9_apply, Read.val_main_v8_apply]
  have e : Read.idx_main_v8 (Read.idx_main_v9 (ix2 n q)) = ix1 q :=
    funext fun a => Fin.ext (by match a with | ⟨0, _⟩ => rfl)
  rw [e]
  rfl

/-- The sum of column `q`'s exponentials, from the zero the sum starts at. -/
theorem sumexp_apply (x0 : (⟨S20000x256, .f32⟩ : BufTy).Contents (Elt Ideal)) (x1 x2 : (⟨S15000x256, .f32⟩ : BufTy).Contents (Elt Ideal))
    (x3 : (⟨S256x256, .f32⟩ : BufTy).Contents (Elt Ideal)) (x4 : (⟨S256, .f32⟩ : BufTy).Contents (Elt Ideal)) (q : Fin 256) :
    Read.val_main_v12 (F := Ideal) x0 x1 x2 x3 x4 (ix1 q)
      = (0 : EReal) + ∑ k : Fin 50000, Ideal.exp (Read.val_main_v4 (F := Ideal) x0 x1 x2 x3 x4 (ix2 k q) - Read.val_main_v7 (F := Ideal) x0 x1 x2 x3 x4 (ix1 q)) := by
  rw [Read.val_main_v12_apply, Read.val_main_cst_1_apply]
  show Ideal.ofBits .f32 0x00000000#32 + _ = _
  rw [Ideal.ofBits_zero_f32]
  refine congrArg ((0 : EReal) + ·) ?_
  refine Finset.sum_congr rfl fun k _ => ?_
  have e : Read.idx_main_v12 (ix1 q) k = ix2 k q :=
    funext fun a => Fin.ext (by match a with | ⟨0, _⟩ => rfl | ⟨1, _⟩ => rfl)
  rw [e, exp_apply]

/-- The weighted feature at row `n`, column `q`. -/
theorem weighted_apply (x0 : (⟨S20000x256, .f32⟩ : BufTy).Contents (Elt Ideal)) (x1 x2 : (⟨S15000x256, .f32⟩ : BufTy).Contents (Elt Ideal))
    (x3 : (⟨S256x256, .f32⟩ : BufTy).Contents (Elt Ideal)) (x4 : (⟨S256, .f32⟩ : BufTy).Contents (Elt Ideal)) (n : Fin 50000) (q : Fin 256) :
    Read.val_main_v16 (F := Ideal) x0 x1 x2 x3 x4 (ix2 n q)
      = Read.val_main_v0 (F := Ideal) x0 x1 x2 (ix2 n q)
        * Ideal.div (Ideal.exp (Read.val_main_v4 (F := Ideal) x0 x1 x2 x3 x4 (ix2 n q) - Read.val_main_v7 (F := Ideal) x0 x1 x2 x3 x4 (ix1 q)))
            ((0 : EReal) + ∑ k : Fin 50000, Ideal.exp (Read.val_main_v4 (F := Ideal) x0 x1 x2 x3 x4 (ix2 k q) - Read.val_main_v7 (F := Ideal) x0 x1 x2 x3 x4 (ix1 q))) := by
  rw [Read.val_main_v16_apply, Read.val_main_v15_apply, Read.val_main_v14_apply, Read.val_main_v13_apply]
  have e : Read.idx_main_v13 (Read.idx_main_v14 (ix2 n q)) = ix1 q :=
    funext fun a => Fin.ext (by match a with | ⟨0, _⟩ => rfl)
  rw [e, sumexp_apply, exp_apply]
  rfl

/-- Column `q` of the reference's weighted sums is the column's pooled value. -/
theorem col_apply (x0 : (⟨S20000x256, .f32⟩ : BufTy).Contents (Elt Ideal)) (x1 x2 : (⟨S15000x256, .f32⟩ : BufTy).Contents (Elt Ideal))
    (x3 : (⟨S256x256, .f32⟩ : BufTy).Contents (Elt Ideal)) (x4 : (⟨S256, .f32⟩ : BufTy).Contents (Elt Ideal))
    (h0 : ∀ i, IsReal (x0 i)) (h1 : ∀ i, IsReal (x1 i)) (h2 : ∀ i, IsReal (x2 i)) (h3 : ∀ i, IsReal (x3 i)) (h4 : ∀ i, IsReal (x4 i)) (q : Fin 256) :
    Read.val_main_v17 (F := Ideal) x0 x1 x2 x3 x4 (ix1 q)
      = ((colPool (fun n : Fin 50000 => logit x0 x1 x2 x3 x4 n q) (fun n : Fin 50000 => feat x0 x1 x2 n q) : ℝ) : EReal) := by
  rw [Read.val_main_v17_apply, Read.val_main_cst_2_apply]
  show Ideal.ofBits .f32 0x00000000#32 + _ = _
  rw [Ideal.ofBits_zero_f32]
  refine Eq.trans ?_ (ref_col (fun n : Fin 50000 => logit x0 x1 x2 x3 x4 n q) (fun n : Fin 50000 => feat x0 x1 x2 n q)
    (fun n : Fin 50000 => Read.val_main_v4 (F := Ideal) x0 x1 x2 x3 x4 (ix2 n q))
    (fun n : Fin 50000 => Read.val_main_v0 (F := Ideal) x0 x1 x2 (ix2 n q))
    (fun n => logit_apply x0 x1 x2 x3 x4 h0 h1 h2 h3 h4 n q) (fun n => table_apply x0 x1 x2 h0 h1 h2 n q)
    (Read.val_main_v7 (F := Ideal) x0 x1 x2 x3 x4 (ix1 q)) (max_apply x0 x1 x2 x3 x4 h0 h1 h2 h3 h4 q))
  refine congrArg ((0 : EReal) + ·) ?_
  refine Finset.sum_congr rfl fun k _ => ?_
  have e : Read.idx_main_v17 (ix1 q) k = ix2 k q :=
    funext fun a => Fin.ext (by match a with | ⟨0, _⟩ => rfl | ⟨1, _⟩ => rfl)
  rw [e, weighted_apply]

theorem ref_eq (x0 : (⟨S20000x256, .f32⟩ : BufTy).Contents (Elt Ideal)) (x1 x2 : (⟨S15000x256, .f32⟩ : BufTy).Contents (Elt Ideal))
    (x3 : (⟨S256x256, .f32⟩ : BufTy).Contents (Elt Ideal)) (x4 : (⟨S256, .f32⟩ : BufTy).Contents (Elt Ideal))
    (h0 : ∀ i, IsReal (x0 i)) (h1 : ∀ i, IsReal (x1 i)) (h2 : ∀ i, IsReal (x2 i)) (h3 : ∀ i, IsReal (x3 i)) (h4 : ∀ i, IsReal (x4 i)) :
    Cert.ReferenceIdeal.Read.val_main_v19 (F := Ideal) x0 x1 x2 x3 x4 = pooled x0 x1 x2 x3 x4 := by
  funext i
  rw [Read.val_main_v19_apply, Read.val_main_cst_3_apply]
  show Ideal.ofBits .f32 0x00000000#32 + _ = _
  rw [Ideal.ofBits_zero_f32, zero_add]
  unfold pooled
  rw [LibSoftmaxShift.coe_sum]
  refine Finset.sum_congr rfl fun q _ => ?_
  rw [Read.val_main_v18_apply]
  have e : Read.idx_main_v18 (Read.idx_main_v19 i q) = ix1 q :=
    funext fun a => Fin.ext (by match a with | ⟨0, _⟩ => rfl)
  rw [e]
  exact col_apply x0 x1 x2 x3 x4 h0 h1 h2 h3 h4 q

end Cert.ReferenceIdeal.RefValue

end
-- ==== Proof.LibFiniteEntry.lean ====
/-
  Finite entries are real numbers.

  On the extended reals the absolute value of x is max(x, -x); it is +infinity exactly when x is one of the two
  infinities. So an entry whose absolute value is strictly below +infinity is a real number. A program tests "every entry
  of x is finite" as  all(|x| < inf):  the comparison entry by entry against a broadcast +infinity, reduced by `and` over
  every axis from the constant true. If the test's one result is true, every entry passed the comparison, and so is real.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteEntry

open Idealize.ShloMosaic Idealize.ShloMosaic.ValueIdx

/-- The shape with no axes has one index. -/
instance : Subsingleton (⟨0, ![]⟩ : Shape).Idx := ⟨fun a b => funext fun d => d.elim0⟩

/-- An extended real whose absolute value is below +infinity is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- One "all entries are finite" test that came out true, read at an entry: the entry is a real number. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi (cmpf .olt (Host.absf x) (broadcastInDim s ![] hb (constant (F := Ideal) ⟨0, ![]⟩ .f32 0x7F800000#32)))
      init hr hu ix0 = 1#1)
    (i : s.Idx) : ∃ r : ℝ, x i = (r : EReal) := by
  have h1 := Host.reduce_andi_all _ init hr hu ix0 e i
  apply real_of_abs_lt_inf
  have hb' : broadcastInDim s ![] hb (constant (F := Ideal) ⟨0, ![]⟩ .f32 0x7F800000#32) i = Ideal.ofBits .f32 0x7F800000#32 :=
    broadcastInDim_apply _ hb _ i ix0 (fun a => a.elim0)
  rw [← hb']
  exact h1

end Cert.LibFiniteEntry

end
-- ==== Proof.Finite.lean ====
import proofs.«115538_g3659312136369_retrytranche1_448_7_alg».proof.Proof.Gen.Pre_finite_inputs
import proofs.«115538_g3659312136369_retrytranche1_448_7_alg».proof.Proof.LibRealSums
import proofs.«115538_g3659312136369_retrytranche1_448_7_alg».proof.Proof.LibFiniteEntry
import Idealize.ShloMosaic.Lib.ReduceAll
import Idealize.ShloMosaic.Lib.ValueIdx

/-!
# Finite inputs are real numbers

The precondition tests `|x| < +∞` for every entry of the five arguments and joins the tests; where it comes out true,
every entry is a real number.
-/

noncomputable section

open scoped BigOperators

namespace Cert.Finite

open Idealize.ShloMosaic Idealize.ShloMosaic.ValueIdx Cert.RealSums
open Cert.Pre_finite_inputs (S20000x256 S15000x256 S256x256 S256 S_)

theorem real_of_fn [Cert.Pre_finite_inputs.Facts]
    (a0 : FVec Ideal S20000x256 .f32) (a1 : FVec Ideal S15000x256 .f32) (a2 : FVec Ideal S15000x256 .f32)
    (a3 : FVec Ideal S256x256 .f32) (a4 : FVec Ideal S256 .f32)
    (h : Cert.Pre_finite_inputs.fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  -- the one result of the joined test, read at the one index of the rank-0 shape
  have h0 := congrFun h ix0
  dsimp only [Cert.Pre_finite_inputs.fn, Cert.Pre_finite_inputs.fn_part1, Idealize.ShloMosaic.andi] at h0
  -- a conjunction of one-bit words is 1 exactly when both are: peel the four `and`s
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  -- each passed test `all(|x| < +∞)` makes every entry of its argument a real number
  exact ⟨fun i => Cert.LibFiniteEntry.real_of_all a0 _ _ _ _ e0 i,
    fun i => Cert.LibFiniteEntry.real_of_all a1 _ _ _ _ e1 i,
    fun i => Cert.LibFiniteEntry.real_of_all a2 _ _ _ _ e2 i,
    fun i => Cert.LibFiniteEntry.real_of_all a3 _ _ _ _ e3 i,
    fun i => Cert.LibFiniteEntry.real_of_all a4 _ _ _ _ e4 i⟩

end Cert.Finite

end
-- ==== Proof.lean ====
/-
  Global attention pooling over three node types: the one-pass kernel against the two-pass reference.

  The reference joins the node features into one table `x` of 50000 rows and 256 columns, forms the gate's logits
  `g = x · W + b`, takes the softmax of every column of `g` over the rows, and returns the sum over rows and columns of
  `x ⊙ softmax(g)`.  The kernel never forms the table or the softmax: it walks over the rows in five steps, each step
  taking 4000 rows of the first node type and 3000 rows of each of the other two, and carries for every column the
  largest logit so far `m`, the sum `z` of `exp (g - m)` so far and the sum `s` of `x · exp (g - m)` so far, rescaling the two
  sums by `exp (m - m')` whenever the largest logit grows to `m'`.  After the last step it returns the sum over the columns
  of `s / z`.

  With finite inputs everything is a real number, `exp (g - m) · exp (m - m') = exp (g - m')`, so after the last step
  `m`, `z`, `s` are the column's largest logit, its sum of exponentials and its feature-weighted sum, in whatever order
  the rows were visited; and `(Σ x e) / Z = Σ x (e / Z)`.  Both programs therefore compute `Cert.Pool.pooled`.
-/
import proofs.«115538_g3659312136369_retrytranche1_448_7_alg».proof.Defs
import proofs.«115538_g3659312136369_retrytranche1_448_7_alg».proof.Proof.Gen.Kernel
import proofs.«115538_g3659312136369_retrytranche1_448_7_alg».proof.Proof.Gen.Kernel.Frame
import proofs.«115538_g3659312136369_retrytranche1_448_7_alg».proof.Proof.Gen.KernelIdeal
import proofs.«115538_g3659312136369_retrytranche1_448_7_alg».proof.Proof.Gen.KernelIdeal.Frame
import proofs.«115538_g3659312136369_retrytranche1_448_7_alg».proof.Proof.Gen.ReferenceIdeal
import proofs.«115538_g3659312136369_retrytranche1_448_7_alg».proof.Proof.Gen.ReferenceIdeal.Run
import proofs.«115538_g3659312136369_retrytranche1_448_7_alg».proof.Proof.Gen.ReferenceIdeal.Read
import proofs.«115538_g3659312136369_retrytranche1_448_7_alg».proof.Proof.Gen.Pre_finite_inputs
import proofs.«115538_g3659312136369_retrytranche1_448_7_alg».proof.Proof.KernelRun
import proofs.«115538_g3659312136369_retrytranche1_448_7_alg».proof.Proof.RefRead
import proofs.«115538_g3659312136369_retrytranche1_448_7_alg».proof.Proof.Finite
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Finite inputs are real, so the kernel's one-pass result and the reference's two-pass result are both the readout. -/
theorem algebraic : Cert.algebraic_KernelIdeal_ReferenceIdeal := by
  intro m ρ m' ρ' hpre hagree
  have hr : ∀ c, Cert.KernelIdeal.State.RealArgs m c := fun c => by
    obtain ⟨h0, h1, h2, h3, h4⟩ := Cert.Finite.real_of_fn _ _ _ _ _ (hpre c)
    exact ⟨h0, h1, h2, h3, h4⟩
  refine ⟨_, Cert.KernelIdeal.RunValue.run m ρ hr, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v19_eq _ _ _ _ _).trans
    (Cert.ReferenceIdeal.RefValue.ref_eq _ _ _ _ _ (hr c).h0 (hr c).h1 (hr c).h2 (hr c).h3 (hr c).h4)

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
